-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v85)) (v1 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_v114) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x128 : Shape := ⟨2, ![300000, 128]⟩
abbrev S150000x128 : Shape := ⟨2, ![150000, 128]⟩
abbrev S600000 : Shape := ⟨1, ![600000]⟩
abbrev S400000 : Shape := ⟨1, ![400000]⟩
abbrev S128x128 : Shape := ⟨2, ![128, 128]⟩
abbrev S128 : Shape := ⟨1, ![128]⟩
abbrev S_ : Shape := ⟨0, ![]⟩

class Facts : Prop where
  bcast_S_S300000x128 : S_.BroadcastsInDim S300000x128 (![] : Fin 0 → Fin S300000x128.rank)
  reducesTo_S300000x128_S_d0_1 : S300000x128.ReducesTo [0, 1] S_
  h_S_ : 0 < S_.numel
  bcast_S_S150000x128 : S_.BroadcastsInDim S150000x128 (![] : Fin 0 → Fin S150000x128.rank)
  reducesTo_S150000x128_S_d0_1 : S150000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg17 : FVec F S128 .f32) (main_arg18 : FVec F S128x128 .f32) (main_arg19 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg17
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg18
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg19
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_v33 : IVec S_ 1) : IVec S_ 1 :=
  let main_v34 : FVec F S128 .f32 := Host.absf main_arg13
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg14
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg15
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg16
  let main_cst_18 : FVec F S_ .f32 := constant S_ .f32 0x7F800000#32
  let main_v50 : FVec F S128x128 .f32 := broadcastInDim S128x128 ![] bcast_S_S128x128 main_cst_18
  fn_part3 (F := F) main_arg17 main_arg18 main_arg19 main_v48 main_v49 main_v50

def fn_part1 {F : FTy → Type} [FloatOps F] (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg11
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg12
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg13 main_arg14 main_arg15 main_arg16 main_arg17 main_arg18 main_arg19 main_v33

def fn {F : FTy → Type} [FloatOps F] (main_arg0 : FVec F S300000x128 .f32) (main_arg1 : FVec F S150000x128 .f32) (main_arg2 : IVec S600000 32) (main_arg3 : IVec S600000 32) (main_arg4 : IVec S600000 32) (main_arg5 : IVec S600000 32) (main_arg6 : IVec S400000 32) (main_arg7 : IVec S400000 32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) : IVec S_ 1 :=
  let main_v0 : FVec F S300000x128 .f32 := Host.absf main_arg0
  let main_cst : FVec F S_ .f32 := constant S_ .f32 0x7F800000#32
  let main_v1 : FVec F S300000x128 .f32 := broadcastInDim S300000x128 ![] bcast_S_S300000x128 main_cst
  let main_v2 : IVec S300000x128 1 := cmpf .olt main_v0 main_v1
  let main_c : IVec S_ 1 := constantI S_ 1 1#1
  let main_v3 : IVec S_ 1 := (fun x v => Host.reduce IntOp.andi x v reducesTo_S300000x128_S_d0_1 h_S_) main_v2 main_c
  let main_v4 : FVec F S150000x128 .f32 := Host.absf main_arg1
  let main_cst_0 : FVec F S_ .f32 := constant S_ .f32 0x7F800000#32
  let main_v5 : FVec F S150000x128 .f32 := broadcastInDim S150000x128 ![] bcast_S_S150000x128 main_cst_0
  let main_v6 : IVec S150000x128 1 := cmpf .olt main_v4 main_v5
  let main_c_1 : IVec S_ 1 := constantI S_ 1 1#1
  let main_v7 : IVec S_ 1 := (fun x v => Host.reduce IntOp.andi x v reducesTo_S150000x128_S_d0_1 h_S_) main_v6 main_c_1
  let main_v8 : IVec S_ 1 := andi main_v3 main_v7
  let main_v9 : FVec F S128x128 .f32 := Host.absf main_arg8
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg9
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg10 main_arg11 main_arg12 main_arg13 main_arg14 main_arg15 main_arg16 main_arg17 main_arg18 main_arg19 main_v13 main_v16
-- ==== Kernel.lean ====
abbrev S300000x128 : Shape := ⟨2, ![300000, 128]⟩
abbrev S150000x128 : Shape := ⟨2, ![150000, 128]⟩
abbrev S600000 : Shape := ⟨1, ![600000]⟩
abbrev S400000 : Shape := ⟨1, ![400000]⟩
abbrev S128x128 : Shape := ⟨2, ![128, 128]⟩
abbrev S128 : Shape := ⟨1, ![128]⟩
abbrev S_ : Shape := ⟨0, ![]⟩
abbrev S300000 : Shape := ⟨1, ![300000]⟩
abbrev S600000x1 : Shape := ⟨2, ![600000, 1]⟩
abbrev S150000 : Shape := ⟨1, ![150000]⟩
abbrev S300000x1 : Shape := ⟨2, ![300000, 1]⟩
abbrev S600000x128 : Shape := ⟨2, ![600000, 128]⟩
abbrev S150000x1 : Shape := ⟨2, ![150000, 1]⟩
abbrev S1x128 : Shape := ⟨2, ![1, 128]⟩
abbrev S6000x128 : Shape := ⟨2, ![6000, 128]⟩
abbrev S400000x1 : Shape := ⟨2, ![400000, 1]⟩
abbrev S400000x128 : Shape := ⟨2, ![400000, 128]⟩

abbrev nBuf : Space → Nat
  | .hbm => 183
  | .vmem => 22
  | .smem => 0
  | _ => 0

abbrev hbmTy0_0 (i : Nat) : BufTy := match i % 128 with
  | 0 => ⟨S300000x128, .f32⟩
  | 1 => ⟨S150000x128, .f32⟩
  | 2 => ⟨S600000, .i32⟩
  | 3 => ⟨S600000, .i32⟩
  | 4 => ⟨S600000, .i32⟩
  | 5 => ⟨S600000, .i32⟩
  | 6 => ⟨S400000, .i32⟩
  | 7 => ⟨S400000, .i32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S_, .f32⟩
  | 21 => ⟨S600000, .f32⟩
  | 22 => ⟨S_, .f32⟩
  | 23 => ⟨S300000, .f32⟩
  | 24 => ⟨S600000x1, .i32⟩
  | 25 => ⟨S300000, .f32⟩
  | 26 => ⟨S_, .f32⟩
  | 27 => ⟨S_, .f32⟩
  | 28 => ⟨S300000, .f32⟩
  | 29 => ⟨S300000, .f32⟩
  | 30 => ⟨S_, .f32⟩
  | 31 => ⟨S150000, .f32⟩
  | 32 => ⟨S600000x1, .i32⟩
  | 33 => ⟨S150000, .f32⟩
  | 34 => ⟨S_, .f32⟩
  | 35 => ⟨S_, .f32⟩
  | 36 => ⟨S150000, .f32⟩
  | 37 => ⟨S150000, .f32⟩
  | 38 => ⟨S300000, .f32⟩
  | 39 => ⟨S300000x1, .f32⟩
  | 40 => ⟨S300000x128, .f32⟩
  | 41 => ⟨S300000x128, .f32⟩
  | 42 => ⟨S_, .i32⟩
  | 43 => ⟨S600000, .i32⟩
  | 44 => ⟨S600000, .i1⟩
  | 45 => ⟨S_, .i32⟩
  | 46 => ⟨S600000, .i32⟩
  | 47 => ⟨S600000, .i32⟩
  | 48 => ⟨S600000, .i32⟩
  | 49 => ⟨S600000x1, .i32⟩
  | 50 => ⟨S600000x128, .f32⟩
  | 51 => ⟨S_, .f32⟩
  | 52 => ⟨S150000x128, .f32⟩
  | 53 => ⟨S600000x1, .i32⟩
  | 54 => ⟨S150000x128, .f32⟩
  | 55 => ⟨S150000, .f32⟩
  | 56 => ⟨S150000x1, .f32⟩
  | 57 => ⟨S150000x128, .f32⟩
  | 58 => ⟨S150000x128, .f32⟩
  | 59 => ⟨S1x128, .f32⟩
  | 60 => ⟨S150000x128, .f32⟩
  | 61 => ⟨S_, .f32⟩
  | 62 => ⟨S600000, .f32⟩
  | 63 => ⟨S_, .f32⟩
  | 64 => ⟨S150000, .f32⟩
  | 65 => ⟨S600000x1, .i32⟩
  | 66 => ⟨S150000, .f32⟩
  | 67 => ⟨S_, .f32⟩
  | 68 => ⟨S_, .f32⟩
  | 69 => ⟨S150000, .f32⟩
  | 70 => ⟨S150000, .f32⟩
  | 71 => ⟨S_, .f32⟩
  | 72 => ⟨S300000, .f32⟩
  | 73 => ⟨S600000x1, .i32⟩
  | 74 => ⟨S300000, .f32⟩
  | 75 => ⟨S_, .f32⟩
  | 76 => ⟨S_, .f32⟩
  | 77 => ⟨S300000, .f32⟩
  | 78 => ⟨S300000, .f32⟩
  | 79 => ⟨S150000, .f32⟩
  | 80 => ⟨S150000x1, .f32⟩
  | 81 => ⟨S150000x128, .f32⟩
  | 82 => ⟨S150000x128, .f32⟩
  | 83 => ⟨S_, .i32⟩
  | 84 => ⟨S600000, .i32⟩
  | 85 => ⟨S600000, .i1⟩
  | 86 => ⟨S_, .i32⟩
  | 87 => ⟨S600000, .i32⟩
  | 88 => ⟨S600000, .i32⟩
  | 89 => ⟨S600000, .i32⟩
  | 90 => ⟨S600000x1, .i32⟩
  | 91 => ⟨S600000x128, .f32⟩
  | 92 => ⟨S_, .f32⟩
  | 93 => ⟨S300000x128, .f32⟩
  | 94 => ⟨S600000x1, .i32⟩
  | 95 => ⟨S300000x128, .f32⟩
  | 96 => ⟨S300000, .f32⟩
  | 97 => ⟨S300000x1, .f32⟩
  | 98 => ⟨S300000x128, .f32⟩
  | 99 => ⟨S300000x128, .f32⟩
  | 100 => ⟨S_, .f32⟩
  | 101 => ⟨S400000, .f32⟩
  | 102 => ⟨S_, .f32⟩
  | 103 => ⟨S300000, .f32⟩
  | 104 => ⟨S400000x1, .i32⟩
  | 105 => ⟨S300000, .f32⟩
  | 106 => ⟨S_, .f32⟩
  | 107 => ⟨S_, .f32⟩
  | 108 => ⟨S300000, .f32⟩
  | 109 => ⟨S300000, .f32⟩
  | 110 => ⟨S_, .f32⟩
  | 111 => ⟨S300000, .f32⟩
  | 112 => ⟨S400000x1, .i32⟩
  | 113 => ⟨S300000, .f32⟩
  | 114 => ⟨S_, .f32⟩
  | 115 => ⟨S_, .f32⟩
  | 116 => ⟨S300000, .f32⟩
  | 117 => ⟨S300000, .f32⟩
  | 118 => ⟨S300000, .f32⟩
  | 119 => ⟨S300000x1, .f32⟩
  | 120 => ⟨S300000x128, .f32⟩
  | 121 => ⟨S300000x128, .f32⟩
  | 122 => ⟨S_, .i32⟩
  | 123 => ⟨S400000, .i32⟩
  | 124 => ⟨S400000, .i1⟩
  | 125 => ⟨S_, .i32⟩
  | 126 => ⟨S400000, .i32⟩
  | 127 => ⟨S400000, .i32⟩
  | _ => ⟨S300000x128, .f32⟩

abbrev hbmTy0_1 (i : Nat) : BufTy := match i % 128 with
  | 0 => ⟨S400000, .i32⟩
  | 1 => ⟨S400000x1, .i32⟩
  | 2 => ⟨S400000x128, .f32⟩
  | 3 => ⟨S_, .f32⟩
  | 4 => ⟨S300000x128, .f32⟩
  | 5 => ⟨S400000x1, .i32⟩
  | 6 => ⟨S300000x128, .f32⟩
  | 7 => ⟨S300000, .f32⟩
  | 8 => ⟨S300000x1, .f32⟩
  | 9 => ⟨S300000x128, .f32⟩
  | 10 => ⟨S300000x128, .f32⟩
  | 11 => ⟨S1x128, .f32⟩
  | 12 => ⟨S1x128, .f32⟩
  | 13 => ⟨S300000x128, .f32⟩
  | 14 => ⟨S_, .f32⟩
  | 15 => ⟨S600000, .f32⟩
  | 16 => ⟨S_, .f32⟩
  | 17 => ⟨S300000, .f32⟩
  | 18 => ⟨S600000x1, .i32⟩
  | 19 => ⟨S300000, .f32⟩
  | 20 => ⟨S_, .f32⟩
  | 21 => ⟨S_, .f32⟩
  | 22 => ⟨S300000, .f32⟩
  | 23 => ⟨S300000, .f32⟩
  | 24 => ⟨S_, .f32⟩
  | 25 => ⟨S150000, .f32⟩
  | 26 => ⟨S600000x1, .i32⟩
  | 27 => ⟨S150000, .f32⟩
  | 28 => ⟨S_, .f32⟩
  | 29 => ⟨S_, .f32⟩
  | 30 => ⟨S150000, .f32⟩
  | 31 => ⟨S150000, .f32⟩
  | 32 => ⟨S300000, .f32⟩
  | 33 => ⟨S300000x1, .f32⟩
  | 34 => ⟨S300000x128, .f32⟩
  | 35 => ⟨S300000x128, .f32⟩
  | 36 => ⟨S_, .i32⟩
  | 37 => ⟨S600000, .i32⟩
  | 38 => ⟨S600000, .i1⟩
  | 39 => ⟨S_, .i32⟩
  | 40 => ⟨S600000, .i32⟩
  | 41 => ⟨S600000, .i32⟩
  | 42 => ⟨S600000, .i32⟩
  | 43 => ⟨S600000x1, .i32⟩
  | 44 => ⟨S600000x128, .f32⟩
  | 45 => ⟨S_, .f32⟩
  | 46 => ⟨S150000x128, .f32⟩
  | 47 => ⟨S600000x1, .i32⟩
  | 48 => ⟨S150000x128, .f32⟩
  | 49 => ⟨S150000, .f32⟩
  | 50 => ⟨S150000x1, .f32⟩
  | 51 => ⟨S150000x128, .f32⟩
  | 52 => ⟨S150000x128, .f32⟩
  | 53 => ⟨S1x128, .f32⟩
  | 54 => ⟨S150000x128, .f32⟩
  | _ => ⟨S300000x128, .f32⟩

abbrev hbmTy (i : Nat) : BufTy := match i / 128 with
  | 0 => hbmTy0_0 i
  | 1 => hbmTy0_1 i
  | _ => ⟨S300000x128, .f32⟩

abbrev bufTy : (tb : Table) → Fin (tcTables nBuf tb) → BufTy
  | .hbm, ⟨i, _⟩ => hbmTy i
  | .local _ .vmem, ⟨0, _⟩ => ⟨S6000x128, .f32⟩
  | .local _ .vmem, ⟨1, _⟩ => ⟨S6000x128, .f32⟩
  | .local _ .vmem, ⟨2, _⟩ => ⟨S128x128, .f32⟩
  | .local _ .vmem, ⟨3, _⟩ => ⟨S1x128, .f32⟩
  | .local _ .vmem, ⟨4, _⟩ => ⟨S6000x128, .f32⟩
  | .local _ .vmem, ⟨5, _⟩ => ⟨S6000x128, .f32⟩
  | .local _ .vmem, ⟨6, _⟩ => ⟨S6000x128, .f32⟩
  | .local _ .vmem, ⟨7, _⟩ => ⟨S6000x128, .f32⟩
  | .local _ .vmem, ⟨8, _⟩ => ⟨S128x128, .f32⟩
  | .local _ .vmem, ⟨9, _⟩ => ⟨S1x128, .f32⟩
  | .local _ .vmem, ⟨10, _⟩ => ⟨S6000x128, .f32⟩
  | .local _ .vmem, ⟨11, _⟩ => ⟨S6000x128, .f32⟩
  | .local _ .vmem, ⟨12, _⟩ => ⟨S128x128, .f32⟩
  | .local _ .vmem, ⟨13, _⟩ => ⟨S1x128, .f32⟩
  | .local _ .vmem, ⟨14, _⟩ => ⟨S6000x128, .f32⟩
  | .local _ .vmem, ⟨15, _⟩ => ⟨S6000x128, .f32⟩
  | .local _ .vmem, ⟨16, _⟩ => ⟨S6000x128, .f32⟩
  | .local _ .vmem, ⟨17, _⟩ => ⟨S6000x128, .f32⟩
  | .local _ .vmem, ⟨18, _⟩ => ⟨S128x128, .f32⟩
  | .local _ .vmem, ⟨19, _⟩ => ⟨S1x128, .f32⟩
  | .local _ .vmem, ⟨20, _⟩ => ⟨S6000x128, .f32⟩
  | .local _ .vmem, ⟨21, _⟩ => ⟨S6000x128, .f32⟩
  | _, _ => ⟨S300000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v4 : Ref sig .tc := ⟨.hbm, 29, rfl⟩
abbrev main_cst_2 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst_3 : Ref sig .tc := ⟨.hbm, 34, rfl⟩
abbrev main_call1_v0 : Ref sig .tc := ⟨.hbm, 35, rfl⟩
abbrev main_call1_v1 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_c : Ref sig .tc := ⟨.hbm, 42, rfl⟩
abbrev main_v13 : Ref sig .tc := ⟨.hbm, 43, rfl⟩
abbrev main_v14 : Ref sig .tc := ⟨.hbm, 44, rfl⟩
abbrev main_c_4 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_5 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_6 : Ref sig .tc := ⟨.hbm, 61, rfl⟩
abbrev main_v29 : Ref sig .tc := ⟨.hbm, 62, rfl⟩
abbrev main_cst_7 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_8 : Ref sig .tc := ⟨.hbm, 67, rfl⟩
abbrev main_call2_v0 : Ref sig .tc := ⟨.hbm, 68, rfl⟩
abbrev main_call2_v1 : Ref sig .tc := ⟨.hbm, 69, rfl⟩
abbrev main_v33 : Ref sig .tc := ⟨.hbm, 70, rfl⟩
abbrev main_cst_9 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_10 : Ref sig .tc := ⟨.hbm, 75, rfl⟩
abbrev main_call3_v0 : Ref sig .tc := ⟨.hbm, 76, rfl⟩
abbrev main_call3_v1 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_c_11 : Ref sig .tc := ⟨.hbm, 83, rfl⟩
abbrev main_v42 : Ref sig .tc := ⟨.hbm, 84, rfl⟩
abbrev main_v43 : Ref sig .tc := ⟨.hbm, 85, rfl⟩
abbrev main_c_12 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_cst_13 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_14 : Ref sig .tc := ⟨.hbm, 100, rfl⟩
abbrev main_v56 : Ref sig .tc := ⟨.hbm, 101, rfl⟩
abbrev main_cst_15 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_cst_16 : Ref sig .tc := ⟨.hbm, 106, rfl⟩
abbrev main_call4_v0 : Ref sig .tc := ⟨.hbm, 107, rfl⟩
abbrev main_call4_v1 : Ref sig .tc := ⟨.hbm, 108, rfl⟩
abbrev main_v60 : Ref sig .tc := ⟨.hbm, 109, rfl⟩
abbrev main_cst_17 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_cst_18 : Ref sig .tc := ⟨.hbm, 114, rfl⟩
abbrev main_call5_v0 : Ref sig .tc := ⟨.hbm, 115, rfl⟩
abbrev main_call5_v1 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_c_19 : Ref sig .tc := ⟨.hbm, 122, rfl⟩
abbrev main_v69 : Ref sig .tc := ⟨.hbm, 123, rfl⟩
abbrev main_v70 : Ref sig .tc := ⟨.hbm, 124, rfl⟩
abbrev main_c_20 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_cst_21 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_cst_22 : Ref sig .tc := ⟨.hbm, 142, rfl⟩
abbrev main_v86 : Ref sig .tc := ⟨.hbm, 143, rfl⟩
abbrev main_cst_23 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_cst_24 : Ref sig .tc := ⟨.hbm, 148, rfl⟩
abbrev main_call6_v0 : Ref sig .tc := ⟨.hbm, 149, rfl⟩
abbrev main_call6_v1 : Ref sig .tc := ⟨.hbm, 150, rfl⟩
abbrev main_v90 : Ref sig .tc := ⟨.hbm, 151, rfl⟩
abbrev main_cst_25 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_cst_26 : Ref sig .tc := ⟨.hbm, 156, rfl⟩
abbrev main_call7_v0 : Ref sig .tc := ⟨.hbm, 157, rfl⟩
abbrev main_call7_v1 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_c_27 : Ref sig .tc := ⟨.hbm, 164, rfl⟩
abbrev main_v99 : Ref sig .tc := ⟨.hbm, 165, rfl⟩
abbrev main_v100 : Ref sig .tc := ⟨.hbm, 166, rfl⟩
abbrev main_c_28 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_cst_29 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S6000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S6000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S6000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S600000 : S_.BroadcastsInDim S600000 (![] : Fin 0 → Fin S600000.rank)
  bcast_S_S300000 : S_.BroadcastsInDim S300000 (![] : Fin 0 → Fin S300000.rank)
  bcast_S600000_S600000x1_0 : S600000.BroadcastsInDim S600000x1 (![0] : Fin 1 → Fin S600000x1.rank)
  bcast_S_S150000 : S_.BroadcastsInDim S150000 (![] : Fin 0 → Fin S150000.rank)
  bcast_S300000_S300000x1_0 : S300000.BroadcastsInDim S300000x1 (![0] : Fin 1 → Fin S300000x1.rank)
  bcast_S300000x1_S300000x128_0_1 : S300000x1.BroadcastsInDim S300000x128 (![0, 1] : Fin 2 → Fin S300000x128.rank)
  bcast_S_S150000x128 : S_.BroadcastsInDim S150000x128 (![] : Fin 0 → Fin S150000x128.rank)
  bcast_S150000_S150000x1_0 : S150000.BroadcastsInDim S150000x1 (![0] : Fin 1 → Fin S150000x1.rank)
  bcast_S150000x1_S150000x128_0_1 : S150000x1.BroadcastsInDim S150000x128 (![0, 1] : Fin 2 → Fin S150000x128.rank)
  shapeCasts_S128_S1x128 : S128.ShapeCasts S1x128
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6000x128 : S1x128.Broadcasts S6000x128
  bcast_S_S300000x128 : S_.BroadcastsInDim S300000x128 (![] : Fin 0 → Fin S300000x128.rank)
  bcast_S_S400000 : S_.BroadcastsInDim S400000 (![] : Fin 0 → Fin S400000.rank)
  bcast_S400000_S400000x1_0 : S400000.BroadcastsInDim S400000x1 (![0] : Fin 1 → Fin S400000x1.rank)
  scatter_S300000_S600000x1_S600000_n_0_0_1_wf : ScatterDims.WF S300000 S600000x1 S600000 [] [0] [0] 1
  scatter_S150000_S600000x1_S600000_n_0_0_1_wf : ScatterDims.WF S150000 S600000x1 S600000 [] [0] [0] 1
  gather_S300000x128_S600000x1_S600000x128_1_0_n_n_0_1_1128_wf : GatherDims.WF S300000x128 S600000x1 S600000x128 [1] [0] [] [0] [] 1 ![1, 128]
  scatter_S150000x128_S600000x1_S600000x128_1_0_0_1_wf : ScatterDims.WF S150000x128 S600000x1 S600000x128 [1] [0] [0] 1
  dot_S6000x128_S128x128_S6000x128_1_0_0_1_n_n_wf : DotDims.WF S6000x128 S128x128 S6000x128 [1] [0] [0] [1] [] []
  gather_S150000x128_S600000x1_S600000x128_1_0_n_n_0_1_1128_wf : GatherDims.WF S150000x128 S600000x1 S600000x128 [1] [0] [] [0] [] 1 ![1, 128]
  scatter_S300000x128_S600000x1_S600000x128_1_0_0_1_wf : ScatterDims.WF S300000x128 S600000x1 S600000x128 [1] [0] [0] 1
  scatter_S300000_S400000x1_S400000_n_0_0_1_wf : ScatterDims.WF S300000 S400000x1 S400000 [] [0] [0] 1
  gather_S300000x128_S400000x1_S400000x128_1_0_n_n_0_1_1128_wf : GatherDims.WF S300000x128 S400000x1 S400000x128 [1] [0] [] [0] [] 1 ![1, 128]
  scatter_S300000x128_S400000x1_S400000x128_1_0_0_1_wf : ScatterDims.WF S300000x128 S400000x1 S400000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S150000x128.size a
  hwx0_0 : ∀ i : grid0.Coords, EltTy.bits .f32 = 32 ∨ (Rect.block (s := S150000x128) S6000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6000x128.size a ≤ S150000x128.size a
  hwx0_3 : ∀ i : grid0.Coords, EltTy.bits .f32 = 32 ∨ (Rect.block (s := S150000x128) S6000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x128.size a ≤ S300000x128.size a
  hwx1_0 : ∀ i : grid1.Coords, EltTy.bits .f32 = 32 ∨ (Rect.block (s := S300000x128) S6000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6000x128.size a ≤ S300000x128.size a
  hwx1_3 : ∀ i : grid1.Coords, EltTy.bits .f32 = 32 ∨ (Rect.block (s := S300000x128) S6000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S6000x128.size a ≤ S300000x128.size a
  hwx1_6 : ∀ i : grid1.Coords, EltTy.bits .f32 = 32 ∨ (Rect.block (s := S300000x128) S6000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x128.size a ≤ S150000x128.size a
  hwx2_0 : ∀ i : grid2.Coords, EltTy.bits .f32 = 32 ∨ (Rect.block (s := S150000x128) S6000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S6000x128.size a ≤ S150000x128.size a
  hwx2_3 : ∀ i : grid2.Coords, EltTy.bits .f32 = 32 ∨ (Rect.block (s := S150000x128) S6000x128.size (cc2_transform_3 i) (hinb2_3 i)).WholeWords (EltTy.packing .f32)

variable [Facts₀]

def scatter_S300000_S600000x1_S600000_n_0_0_1 : ScatterDims S300000 S600000x1 S600000 where
  updateWindowDims := []
  insertedWindowDims := [0]
  scatterDimsToOperandDims := [0]
  indexVectorDim := 1
  wf := scatter_S300000_S600000x1_S600000_n_0_0_1_wf
def scatter_S150000_S600000x1_S600000_n_0_0_1 : ScatterDims S150000 S600000x1 S600000 where
  updateWindowDims := []
  insertedWindowDims := [0]
  scatterDimsToOperandDims := [0]
  indexVectorDim := 1
  wf := scatter_S150000_S600000x1_S600000_n_0_0_1_wf
def gather_S300000x128_S600000x1_S600000x128_1_0_n_n_0_1_1128 : GatherDims S300000x128 S600000x1 S600000x128 where
  offsetDims := [1]
  collapsedSliceDims := [0]
  operandBatchingDims := []
  startIndicesBatchingDims := []
  startIndexMap := [0]
  indexVectorDim := 1
  sliceSizes := ![1, 128]
  wf := gather_S300000x128_S600000x1_S600000x128_1_0_n_n_0_1_1128_wf
def scatter_S150000x128_S600000x1_S600000x128_1_0_0_1 : ScatterDims S150000x128 S600000x1 S600000x128 where
  updateWindowDims := [1]
  insertedWindowDims := [0]
  scatterDimsToOperandDims := [0]
  indexVectorDim := 1
  wf := scatter_S150000x128_S600000x1_S600000x128_1_0_0_1_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def gather_S150000x128_S600000x1_S600000x128_1_0_n_n_0_1_1128 : GatherDims S150000x128 S600000x1 S600000x128 where
  offsetDims := [1]
  collapsedSliceDims := [0]
  operandBatchingDims := []
  startIndicesBatchingDims := []
  startIndexMap := [0]
  indexVectorDim := 1
  sliceSizes := ![1, 128]
  wf := gather_S150000x128_S600000x1_S600000x128_1_0_n_n_0_1_1128_wf
def scatter_S300000x128_S600000x1_S600000x128_1_0_0_1 : ScatterDims S300000x128 S600000x1 S600000x128 where
  updateWindowDims := [1]
  insertedWindowDims := [0]
  scatterDimsToOperandDims := [0]
  indexVectorDim := 1
  wf := scatter_S300000x128_S600000x1_S600000x128_1_0_0_1_wf
def scatter_S300000_S400000x1_S400000_n_0_0_1 : ScatterDims S300000 S400000x1 S400000 where
  updateWindowDims := []
  insertedWindowDims := [0]
  scatterDimsToOperandDims := [0]
  indexVectorDim := 1
  wf := scatter_S300000_S400000x1_S400000_n_0_0_1_wf
def gather_S300000x128_S400000x1_S400000x128_1_0_n_n_0_1_1128 : GatherDims S300000x128 S400000x1 S400000x128 where
  offsetDims := [1]
  collapsedSliceDims := [0]
  operandBatchingDims := []
  startIndicesBatchingDims := []
  startIndexMap := [0]
  indexVectorDim := 1
  sliceSizes := ![1, 128]
  wf := gather_S300000x128_S400000x1_S400000x128_1_0_n_n_0_1_1128_wf
def scatter_S300000x128_S400000x1_S400000x128_1_0_0_1 : ScatterDims S300000x128 S400000x1 S400000x128 where
  updateWindowDims := [1]
  insertedWindowDims := [0]
  scatterDimsToOperandDims := [0]
  indexVectorDim := 1
  wf := scatter_S300000x128_S400000x1_S400000x128_1_0_0_1_wf

abbrev win0_0 : Pipeline.Window sig grid0 :=
  Pipeline.Window.ofSpec (Memref.whole main_v26) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg10) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S6000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v55) S6000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg14) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v83) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v82) S6000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg18) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v84) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v85) S6000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v112) S6000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg16) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v113) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v114) S6000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S300000x128 : Shape := ⟨2, ![300000, 128]⟩
abbrev S150000x128 : Shape := ⟨2, ![150000, 128]⟩
abbrev S600000 : Shape := ⟨1, ![600000]⟩
abbrev S400000 : Shape := ⟨1, ![400000]⟩
abbrev S128x128 : Shape := ⟨2, ![128, 128]⟩
abbrev S128 : Shape := ⟨1, ![128]⟩
abbrev S_ : Shape := ⟨0, ![]⟩
abbrev S300000 : Shape := ⟨1, ![300000]⟩
abbrev S600000x1 : Shape := ⟨2, ![600000, 1]⟩
abbrev S150000 : Shape := ⟨1, ![150000]⟩
abbrev S300000x1 : Shape := ⟨2, ![300000, 1]⟩
abbrev S600000x128 : Shape := ⟨2, ![600000, 128]⟩
abbrev S150000x1 : Shape := ⟨2, ![150000, 1]⟩
abbrev S1x128 : Shape := ⟨2, ![1, 128]⟩
abbrev S400000x1 : Shape := ⟨2, ![400000, 1]⟩
abbrev S400000x128 : Shape := ⟨2, ![400000, 128]⟩

abbrev nBuf : Space → Nat
  | .hbm => 196
  | .vmem => 0
  | .smem => 0
  | _ => 0

abbrev hbmTy0_0 (i : Nat) : BufTy := match i % 128 with
  | 0 => ⟨S300000x128, .f32⟩
  | 1 => ⟨S150000x128, .f32⟩
  | 2 => ⟨S600000, .i32⟩
  | 3 => ⟨S600000, .i32⟩
  | 4 => ⟨S600000, .i32⟩
  | 5 => ⟨S600000, .i32⟩
  | 6 => ⟨S400000, .i32⟩
  | 7 => ⟨S400000, .i32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S_, .f32⟩
  | 21 => ⟨S600000, .f32⟩
  | 22 => ⟨S_, .f32⟩
  | 23 => ⟨S300000, .f32⟩
  | 24 => ⟨S600000x1, .i32⟩
  | 25 => ⟨S300000, .f32⟩
  | 26 => ⟨S_, .f32⟩
  | 27 => ⟨S_, .f32⟩
  | 28 => ⟨S300000, .f32⟩
  | 29 => ⟨S300000, .f32⟩
  | 30 => ⟨S_, .f32⟩
  | 31 => ⟨S150000, .f32⟩
  | 32 => ⟨S600000x1, .i32⟩
  | 33 => ⟨S150000, .f32⟩
  | 34 => ⟨S_, .f32⟩
  | 35 => ⟨S_, .f32⟩
  | 36 => ⟨S150000, .f32⟩
  | 37 => ⟨S150000, .f32⟩
  | 38 => ⟨S300000, .f32⟩
  | 39 => ⟨S300000x1, .f32⟩
  | 40 => ⟨S300000x128, .f32⟩
  | 41 => ⟨S300000x128, .f32⟩
  | 42 => ⟨S_, .i32⟩
  | 43 => ⟨S600000, .i32⟩
  | 44 => ⟨S600000, .i1⟩
  | 45 => ⟨S_, .i32⟩
  | 46 => ⟨S600000, .i32⟩
  | 47 => ⟨S600000, .i32⟩
  | 48 => ⟨S600000, .i32⟩
  | 49 => ⟨S600000x1, .i32⟩
  | 50 => ⟨S600000x128, .f32⟩
  | 51 => ⟨S_, .f32⟩
  | 52 => ⟨S150000x128, .f32⟩
  | 53 => ⟨S600000x1, .i32⟩
  | 54 => ⟨S150000x128, .f32⟩
  | 55 => ⟨S150000, .f32⟩
  | 56 => ⟨S150000x1, .f32⟩
  | 57 => ⟨S150000x128, .f32⟩
  | 58 => ⟨S150000x128, .f32⟩
  | 59 => ⟨S150000x128, .f32⟩
  | 60 => ⟨S1x128, .f32⟩
  | 61 => ⟨S150000x128, .f32⟩
  | 62 => ⟨S150000x128, .f32⟩
  | 63 => ⟨S_, .f32⟩
  | 64 => ⟨S150000x128, .f32⟩
  | 65 => ⟨S150000x128, .f32⟩
  | 66 => ⟨S_, .f32⟩
  | 67 => ⟨S600000, .f32⟩
  | 68 => ⟨S_, .f32⟩
  | 69 => ⟨S150000, .f32⟩
  | 70 => ⟨S600000x1, .i32⟩
  | 71 => ⟨S150000, .f32⟩
  | 72 => ⟨S_, .f32⟩
  | 73 => ⟨S_, .f32⟩
  | 74 => ⟨S150000, .f32⟩
  | 75 => ⟨S150000, .f32⟩
  | 76 => ⟨S_, .f32⟩
  | 77 => ⟨S300000, .f32⟩
  | 78 => ⟨S600000x1, .i32⟩
  | 79 => ⟨S300000, .f32⟩
  | 80 => ⟨S_, .f32⟩
  | 81 => ⟨S_, .f32⟩
  | 82 => ⟨S300000, .f32⟩
  | 83 => ⟨S300000, .f32⟩
  | 84 => ⟨S150000, .f32⟩
  | 85 => ⟨S150000x1, .f32⟩
  | 86 => ⟨S150000x128, .f32⟩
  | 87 => ⟨S150000x128, .f32⟩
  | 88 => ⟨S_, .i32⟩
  | 89 => ⟨S600000, .i32⟩
  | 90 => ⟨S600000, .i1⟩
  | 91 => ⟨S_, .i32⟩
  | 92 => ⟨S600000, .i32⟩
  | 93 => ⟨S600000, .i32⟩
  | 94 => ⟨S600000, .i32⟩
  | 95 => ⟨S600000x1, .i32⟩
  | 96 => ⟨S600000x128, .f32⟩
  | 97 => ⟨S_, .f32⟩
  | 98 => ⟨S300000x128, .f32⟩
  | 99 => ⟨S600000x1, .i32⟩
  | 100 => ⟨S300000x128, .f32⟩
  | 101 => ⟨S300000, .f32⟩
  | 102 => ⟨S300000x1, .f32⟩
  | 103 => ⟨S300000x128, .f32⟩
  | 104 => ⟨S300000x128, .f32⟩
  | 105 => ⟨S300000x128, .f32⟩
  | 106 => ⟨S1x128, .f32⟩
  | 107 => ⟨S300000x128, .f32⟩
  | 108 => ⟨S300000x128, .f32⟩
  | 109 => ⟨S_, .f32⟩
  | 110 => ⟨S400000, .f32⟩
  | 111 => ⟨S_, .f32⟩
  | 112 => ⟨S300000, .f32⟩
  | 113 => ⟨S400000x1, .i32⟩
  | 114 => ⟨S300000, .f32⟩
  | 115 => ⟨S_, .f32⟩
  | 116 => ⟨S_, .f32⟩
  | 117 => ⟨S300000, .f32⟩
  | 118 => ⟨S300000, .f32⟩
  | 119 => ⟨S_, .f32⟩
  | 120 => ⟨S300000, .f32⟩
  | 121 => ⟨S400000x1, .i32⟩
  | 122 => ⟨S300000, .f32⟩
  | 123 => ⟨S_, .f32⟩
  | 124 => ⟨S_, .f32⟩
  | 125 => ⟨S300000, .f32⟩
  | 126 => ⟨S300000, .f32⟩
  | 127 => ⟨S300000, .f32⟩
  | _ => ⟨S300000x128, .f32⟩

abbrev hbmTy0_1 (i : Nat) : BufTy := match i % 128 with
  | 0 => ⟨S300000x1, .f32⟩
  | 1 => ⟨S300000x128, .f32⟩
  | 2 => ⟨S300000x128, .f32⟩
  | 3 => ⟨S_, .i32⟩
  | 4 => ⟨S400000, .i32⟩
  | 5 => ⟨S400000, .i1⟩
  | 6 => ⟨S_, .i32⟩
  | 7 => ⟨S400000, .i32⟩
  | 8 => ⟨S400000, .i32⟩
  | 9 => ⟨S400000, .i32⟩
  | 10 => ⟨S400000x1, .i32⟩
  | 11 => ⟨S400000x128, .f32⟩
  | 12 => ⟨S_, .f32⟩
  | 13 => ⟨S300000x128, .f32⟩
  | 14 => ⟨S400000x1, .i32⟩
  | 15 => ⟨S300000x128, .f32⟩
  | 16 => ⟨S300000, .f32⟩
  | 17 => ⟨S300000x1, .f32⟩
  | 18 => ⟨S300000x128, .f32⟩
  | 19 => ⟨S300000x128, .f32⟩
  | 20 => ⟨S300000x128, .f32⟩
  | 21 => ⟨S1x128, .f32⟩
  | 22 => ⟨S300000x128, .f32⟩
  | 23 => ⟨S300000x128, .f32⟩
  | 24 => ⟨S300000x128, .f32⟩
  | 25 => ⟨S_, .f32⟩
  | 26 => ⟨S600000, .f32⟩
  | 27 => ⟨S_, .f32⟩
  | 28 => ⟨S300000, .f32⟩
  | 29 => ⟨S600000x1, .i32⟩
  | 30 => ⟨S300000, .f32⟩
  | 31 => ⟨S_, .f32⟩
  | 32 => ⟨S_, .f32⟩
  | 33 => ⟨S300000, .f32⟩
  | 34 => ⟨S300000, .f32⟩
  | 35 => ⟨S_, .f32⟩
  | 36 => ⟨S150000, .f32⟩
  | 37 => ⟨S600000x1, .i32⟩
  | 38 => ⟨S150000, .f32⟩
  | 39 => ⟨S_, .f32⟩
  | 40 => ⟨S_, .f32⟩
  | 41 => ⟨S150000, .f32⟩
  | 42 => ⟨S150000, .f32⟩
  | 43 => ⟨S300000, .f32⟩
  | 44 => ⟨S300000x1, .f32⟩
  | 45 => ⟨S300000x128, .f32⟩
  | 46 => ⟨S300000x128, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S600000x128, .f32⟩
  | 56 => ⟨S_, .f32⟩
  | 57 => ⟨S150000x128, .f32⟩
  | 58 => ⟨S600000x1, .i32⟩
  | 59 => ⟨S150000x128, .f32⟩
  | 60 => ⟨S150000, .f32⟩
  | 61 => ⟨S150000x1, .f32⟩
  | 62 => ⟨S150000x128, .f32⟩
  | 63 => ⟨S150000x128, .f32⟩
  | 64 => ⟨S150000x128, .f32⟩
  | 65 => ⟨S1x128, .f32⟩
  | 66 => ⟨S150000x128, .f32⟩
  | 67 => ⟨S150000x128, .f32⟩
  | _ => ⟨S300000x128, .f32⟩

abbrev hbmTy (i : Nat) : BufTy := match i / 128 with
  | 0 => hbmTy0_0 i
  | 1 => hbmTy0_1 i
  | _ => ⟨S300000x128, .f32⟩

abbrev bufTy : (tb : Table) → Fin (tcTables nBuf tb) → BufTy
  | .hbm, ⟨i, _⟩ => hbmTy i
  | _, _ => ⟨S300000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v4 : Ref sig .tc := ⟨.hbm, 29, rfl⟩
abbrev main_cst_2 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst_3 : Ref sig .tc := ⟨.hbm, 34, rfl⟩
abbrev main_call1_v0 : Ref sig .tc := ⟨.hbm, 35, rfl⟩
abbrev main_call1_v1 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_c : Ref sig .tc := ⟨.hbm, 42, rfl⟩
abbrev main_v13 : Ref sig .tc := ⟨.hbm, 43, rfl⟩
abbrev main_v14 : Ref sig .tc := ⟨.hbm, 44, rfl⟩
abbrev main_c_4 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_5 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_call2_cst : Ref sig .tc := ⟨.hbm, 63, rfl⟩
abbrev main_call2_v0 : Ref sig .tc := ⟨.hbm, 64, rfl⟩
abbrev main_v31 : Ref sig .tc := ⟨.hbm, 65, rfl⟩
abbrev main_cst_6 : Ref sig .tc := ⟨.hbm, 66, rfl⟩
abbrev main_v32 : Ref sig .tc := ⟨.hbm, 67, rfl⟩
abbrev main_cst_7 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_8 : Ref sig .tc := ⟨.hbm, 72, rfl⟩
abbrev main_call3_v0 : Ref sig .tc := ⟨.hbm, 73, rfl⟩
abbrev main_call3_v1 : Ref sig .tc := ⟨.hbm, 74, rfl⟩
abbrev main_v36 : Ref sig .tc := ⟨.hbm, 75, rfl⟩
abbrev main_cst_9 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_10 : Ref sig .tc := ⟨.hbm, 80, rfl⟩
abbrev main_call4_v0 : Ref sig .tc := ⟨.hbm, 81, rfl⟩
abbrev main_call4_v1 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_c_11 : Ref sig .tc := ⟨.hbm, 88, rfl⟩
abbrev main_v45 : Ref sig .tc := ⟨.hbm, 89, rfl⟩
abbrev main_v46 : Ref sig .tc := ⟨.hbm, 90, rfl⟩
abbrev main_c_12 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_cst_13 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_14 : Ref sig .tc := ⟨.hbm, 109, rfl⟩
abbrev main_v63 : Ref sig .tc := ⟨.hbm, 110, rfl⟩
abbrev main_cst_15 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_cst_16 : Ref sig .tc := ⟨.hbm, 115, rfl⟩
abbrev main_call5_v0 : Ref sig .tc := ⟨.hbm, 116, rfl⟩
abbrev main_call5_v1 : Ref sig .tc := ⟨.hbm, 117, rfl⟩
abbrev main_v67 : Ref sig .tc := ⟨.hbm, 118, rfl⟩
abbrev main_cst_17 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_cst_18 : Ref sig .tc := ⟨.hbm, 123, rfl⟩
abbrev main_call6_v0 : Ref sig .tc := ⟨.hbm, 124, rfl⟩
abbrev main_call6_v1 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_c_19 : Ref sig .tc := ⟨.hbm, 131, rfl⟩
abbrev main_v76 : Ref sig .tc := ⟨.hbm, 132, rfl⟩
abbrev main_v77 : Ref sig .tc := ⟨.hbm, 133, rfl⟩
abbrev main_c_20 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_cst_21 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_cst_22 : Ref sig .tc := ⟨.hbm, 153, rfl⟩
abbrev main_v95 : Ref sig .tc := ⟨.hbm, 154, rfl⟩
abbrev main_cst_23 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_cst_24 : Ref sig .tc := ⟨.hbm, 159, rfl⟩
abbrev main_call7_v0 : Ref sig .tc := ⟨.hbm, 160, rfl⟩
abbrev main_call7_v1 : Ref sig .tc := ⟨.hbm, 161, rfl⟩
abbrev main_v99 : Ref sig .tc := ⟨.hbm, 162, rfl⟩
abbrev main_cst_25 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_cst_26 : Ref sig .tc := ⟨.hbm, 167, rfl⟩
abbrev main_call8_v0 : Ref sig .tc := ⟨.hbm, 168, rfl⟩
abbrev main_call8_v1 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_c_27 : Ref sig .tc := ⟨.hbm, 175, rfl⟩
abbrev main_v108 : Ref sig .tc := ⟨.hbm, 176, rfl⟩
abbrev main_v109 : Ref sig .tc := ⟨.hbm, 177, rfl⟩
abbrev main_c_28 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_cst_29 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S300000 : S_.BroadcastsInDim S300000 (![] : Fin 0 → Fin S300000.rank)
  bcast_S600000_S600000x1_0 : S600000.BroadcastsInDim S600000x1 (![0] : Fin 1 → Fin S600000x1.rank)
  bcast_S_S150000 : S_.BroadcastsInDim S150000 (![] : Fin 0 → Fin S150000.rank)
  bcast_S300000_S300000x1_0 : S300000.BroadcastsInDim S300000x1 (![0] : Fin 1 → Fin S300000x1.rank)
  bcast_S300000x1_S300000x128_0_1 : S300000x1.BroadcastsInDim S300000x128 (![0, 1] : Fin 2 → Fin S300000x128.rank)
  bcast_S_S150000x128 : S_.BroadcastsInDim S150000x128 (![] : Fin 0 → Fin S150000x128.rank)
  bcast_S150000_S150000x1_0 : S150000.BroadcastsInDim S150000x1 (![0] : Fin 1 → Fin S150000x1.rank)
  bcast_S150000x1_S150000x128_0_1 : S150000x1.BroadcastsInDim S150000x128 (![0, 1] : Fin 2 → Fin S150000x128.rank)
  bcast_S128_S1x128_1 : S128.BroadcastsInDim S1x128 (![1] : Fin 1 → Fin S1x128.rank)
  bcast_S1x128_S150000x128_0_1 : S1x128.BroadcastsInDim S150000x128 (![0, 1] : Fin 2 → Fin S150000x128.rank)
  bcast_S_S300000x128 : S_.BroadcastsInDim S300000x128 (![] : Fin 0 → Fin S300000x128.rank)
  bcast_S1x128_S300000x128_0_1 : S1x128.BroadcastsInDim S300000x128 (![0, 1] : Fin 2 → Fin S300000x128.rank)
  bcast_S_S400000 : S_.BroadcastsInDim S400000 (![] : Fin 0 → Fin S400000.rank)
  bcast_S400000_S400000x1_0 : S400000.BroadcastsInDim S400000x1 (![0] : Fin 1 → Fin S400000x1.rank)
  scatter_S300000_S600000x1_S600000_n_0_0_1_wf : ScatterDims.WF S300000 S600000x1 S600000 [] [0] [0] 1
  scatter_S150000_S600000x1_S600000_n_0_0_1_wf : ScatterDims.WF S150000 S600000x1 S600000 [] [0] [0] 1
  gather_S300000x128_S600000x1_S600000x128_1_0_n_n_0_1_1128_wf : GatherDims.WF S300000x128 S600000x1 S600000x128 [1] [0] [] [0] [] 1 ![1, 128]
  scatter_S150000x128_S600000x1_S600000x128_1_0_0_1_wf : ScatterDims.WF S150000x128 S600000x1 S600000x128 [1] [0] [0] 1
  dot_S150000x128_S128x128_S150000x128_1_0_0_1_n_n_wf : DotDims.WF S150000x128 S128x128 S150000x128 [1] [0] [0] [1] [] []
  gather_S150000x128_S600000x1_S600000x128_1_0_n_n_0_1_1128_wf : GatherDims.WF S150000x128 S600000x1 S600000x128 [1] [0] [] [0] [] 1 ![1, 128]
  scatter_S300000x128_S600000x1_S600000x128_1_0_0_1_wf : ScatterDims.WF S300000x128 S600000x1 S600000x128 [1] [0] [0] 1
  dot_S300000x128_S128x128_S300000x128_1_0_0_1_n_n_wf : DotDims.WF S300000x128 S128x128 S300000x128 [1] [0] [0] [1] [] []
  scatter_S300000_S400000x1_S400000_n_0_0_1_wf : ScatterDims.WF S300000 S400000x1 S400000 [] [0] [0] 1
  gather_S300000x128_S400000x1_S400000x128_1_0_n_n_0_1_1128_wf : GatherDims.WF S300000x128 S400000x1 S400000x128 [1] [0] [] [0] [] 1 ![1, 128]
  scatter_S300000x128_S400000x1_S400000x128_1_0_0_1_wf : ScatterDims.WF S300000x128 S400000x1 S400000x128 [1] [0] [0] 1

variable [Facts₀]

def scatter_S300000_S600000x1_S600000_n_0_0_1 : ScatterDims S300000 S600000x1 S600000 where
  updateWindowDims := []
  insertedWindowDims := [0]
  scatterDimsToOperandDims := [0]
  indexVectorDim := 1
  wf := scatter_S300000_S600000x1_S600000_n_0_0_1_wf
def scatter_S150000_S600000x1_S600000_n_0_0_1 : ScatterDims S150000 S600000x1 S600000 where
  updateWindowDims := []
  insertedWindowDims := [0]
  scatterDimsToOperandDims := [0]
  indexVectorDim := 1
  wf := scatter_S150000_S600000x1_S600000_n_0_0_1_wf
def gather_S300000x128_S600000x1_S600000x128_1_0_n_n_0_1_1128 : GatherDims S300000x128 S600000x1 S600000x128 where
  offsetDims := [1]
  collapsedSliceDims := [0]
  operandBatchingDims := []
  startIndicesBatchingDims := []
  startIndexMap := [0]
  indexVectorDim := 1
  sliceSizes := ![1, 128]
  wf := gather_S300000x128_S600000x1_S600000x128_1_0_n_n_0_1_1128_wf
def scatter_S150000x128_S600000x1_S600000x128_1_0_0_1 : ScatterDims S150000x128 S600000x1 S600000x128 where
  updateWindowDims := [1]
  insertedWindowDims := [0]
  scatterDimsToOperandDims := [0]
  indexVectorDim := 1
  wf := scatter_S150000x128_S600000x1_S600000x128_1_0_0_1_wf
def dot_S150000x128_S128x128_S150000x128_1_0_0_1_n_n : DotDims S150000x128 S128x128 S150000x128 where
  lhsContracting := [1]
  rhsContracting := [0]
  lhsNonContracting := [0]
  rhsNonContracting := [1]
  lhsBatch := []
  rhsBatch := []
  wf := dot_S150000x128_S128x128_S150000x128_1_0_0_1_n_n_wf
def gather_S150000x128_S600000x1_S600000x128_1_0_n_n_0_1_1128 : GatherDims S150000x128 S600000x1 S600000x128 where
  offsetDims := [1]
  collapsedSliceDims := [0]
  operandBatchingDims := []
  startIndicesBatchingDims := []
  startIndexMap := [0]
  indexVectorDim := 1
  sliceSizes := ![1, 128]
  wf := gather_S150000x128_S600000x1_S600000x128_1_0_n_n_0_1_1128_wf
def scatter_S300000x128_S600000x1_S600000x128_1_0_0_1 : ScatterDims S300000x128 S600000x1 S600000x128 where
  updateWindowDims := [1]
  insertedWindowDims := [0]
  scatterDimsToOperandDims := [0]
  indexVectorDim := 1
  wf := scatter_S300000x128_S600000x1_S600000x128_1_0_0_1_wf
def dot_S300000x128_S128x128_S300000x128_1_0_0_1_n_n : DotDims S300000x128 S128x128 S300000x128 where
  lhsContracting := [1]
  rhsContracting := [0]
  lhsNonContracting := [0]
  rhsNonContracting := [1]
  lhsBatch := []
  rhsBatch := []
  wf := dot_S300000x128_S128x128_S300000x128_1_0_0_1_n_n_wf
def scatter_S300000_S400000x1_S400000_n_0_0_1 : ScatterDims S300000 S400000x1 S400000 where
  updateWindowDims := []
  insertedWindowDims := [0]
  scatterDimsToOperandDims := [0]
  indexVectorDim := 1
  wf := scatter_S300000_S400000x1_S400000_n_0_0_1_wf
def gather_S300000x128_S400000x1_S400000x128_1_0_n_n_0_1_1128 : GatherDims S300000x128 S400000x1 S400000x128 where
  offsetDims := [1]
  collapsedSliceDims := [0]
  operandBatchingDims := []
  startIndicesBatchingDims := []
  startIndexMap := [0]
  indexVectorDim := 1
  sliceSizes := ![1, 128]
  wf := gather_S300000x128_S400000x1_S400000x128_1_0_n_n_0_1_1128_wf
def scatter_S300000x128_S400000x1_S400000x128_1_0_0_1 : ScatterDims S300000x128 S400000x1 S400000x128 where
  updateWindowDims := [1]
  insertedWindowDims := [0]
  scatterDimsToOperandDims := [0]
  indexVectorDim := 1
  wf := scatter_S300000x128_S400000x1_S400000x128_1_0_0_1_wf

class Facts : Prop extends Facts₀ where

variable [Facts]
-- ==== Proof.RunResults.lean ====
/-
  The kernel program's run with its two results kept.

  @main is three row-tiled regions among stretches of host operations. Its run leaves every buffer of a core at the
  contents the segments fold from the launch memory: a host stretch rewrites the buffers its operations write, a
  region replaces its output array by what its grid points wrote back. The last boundary's contents are `W22`;
  here the run is stated with the two result buffers read there, beside the arguments, which end as launched.
-/
import proofs.«108617_j11038065950752_1_alg».proof.Proof.Gen.KernelIdeal.Frame

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result buffers at the last
    boundary's contents and the argument arrays as launched: the segments' run, the last thread state read against
    the final state, each result buffer by its membership among the unscoped buffers. -/
theorem run_results : θ_run defs (onTc (τ := τ) (main (F := F))) ⟨m, fun _ => 0, ρ⟩ (fun r => ∀ c : Dev nD,
      r.2.mem ((c.tc : Thread nD τ).loc main_v85) = W22 m ρ c (Proc.devRef .tc main_v85)
      ∧ r.2.mem ((c.tc : Thread nD τ).loc main_v114) = W22 m ρ c (Proc.devRef .tc main_v114)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v85 (by decide)),
       h c _ (mem_uc main_v114 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c),
       (h c _ (mem_uc main_arg11 (by decide))).trans (W22_main_arg11 m ρ c),
       (h c _ (mem_uc main_arg12 (by decide))).trans (W22_main_arg12 m ρ c),
       (h c _ (mem_uc main_arg13 (by decide))).trans (W22_main_arg13 m ρ c),
       (h c _ (mem_uc main_arg14 (by decide))).trans (W22_main_arg14 m ρ c),
       (h c _ (mem_uc main_arg15 (by decide))).trans (W22_main_arg15 m ρ c),
       (h c _ (mem_uc main_arg16 (by decide))).trans (W22_main_arg16 m ρ c),
       (h c _ (mem_uc main_arg17 (by decide))).trans (W22_main_arg17 m ρ c),
       (h c _ (mem_uc main_arg18 (by decide))).trans (W22_main_arg18 m ρ c),
       (h c _ (mem_uc main_arg19 (by decide))).trans (W22_main_arg19 m ρ c)⟩)

end Cert.KernelIdeal.Results

end
-- ==== Proof.Chains.lean ====
/-
  The degree-normalised neighbourhood sums both programs compute on the host, named once.

  For a relation with edge lists `src`, `dst` from a source node type to a destination node type, the layer's
  irregular part is `D_dst^{-1/2} · A · (D_src^{-1/2} · x)`: every source row scaled by the inverse square root of its
  out-degree (counted by a scatter-add of ones over `src`, clipped below at one), the scaled rows gathered along
  `src` (negative indices wrapped by the row count) and summed into the destination rows by a scatter-add over
  `dst`, and every destination row scaled by the inverse square root of its clipped in-degree. The kernel's program
  and the reference spell this with the same operations in the same order; it is stated here as three functions,
  one per relation, so that the two programs' results can be compared without looking inside a sum over edges.
-/
import proofs.«108617_j11038065950752_1_alg».proof.ReferenceIdeal

noncomputable section

namespace Cert.Rgcn

open Idealize.ShloMosaic Cert.ReferenceIdeal

variable {F : FTy → Type} [FloatOps F]
-- the shapes' side conditions (which broadcasts and scatters are well formed) are the reference program's stated facts
variable [Facts₀]
open Facts₀

/-- Inverse square root of the clipped degree of each of the 300000 loan nodes among 600000 edge endpoints. -/
def invSqrtDegL6 (idx : (⟨S600000, .i32⟩ : BufTy).Contents (Elt F)) : (⟨S300000, .f32⟩ : BufTy).Contents (Elt F) :=
  Host.rsqrt (maximumf (broadcastInDim S300000 ![] bcast_S_S300000 (id (constant S_ .f32 0x3F800000#32)))
    (Host.scatterAdd scatter_S300000_S600000x1_S600000_n_0_0_1
      (broadcastInDim S300000 ![] bcast_S_S300000 (constant S_ .f32 0x00000000#32))
      (broadcastInDim S600000x1 ![0] bcast_S600000_S600000x1_0 idx)
      (broadcastInDim S600000 ![] bcast_S_S600000 (constant S_ .f32 0x3F800000#32))))

/-- Inverse square root of the clipped degree of each of the 150000 client nodes among 600000 edge endpoints. -/
def invSqrtDegC6 (idx : (⟨S600000, .i32⟩ : BufTy).Contents (Elt F)) : (⟨S150000, .f32⟩ : BufTy).Contents (Elt F) :=
  Host.rsqrt (maximumf (broadcastInDim S150000 ![] bcast_S_S150000 (id (constant S_ .f32 0x3F800000#32)))
    (Host.scatterAdd scatter_S150000_S600000x1_S600000_n_0_0_1
      (broadcastInDim S150000 ![] bcast_S_S150000 (constant S_ .f32 0x00000000#32))
      (broadcastInDim S600000x1 ![0] bcast_S600000_S600000x1_0 idx)
      (broadcastInDim S600000 ![] bcast_S_S600000 (constant S_ .f32 0x3F800000#32))))

/-- Inverse square root of the clipped degree of each of the 300000 loan nodes among 400000 edge endpoints. -/
def invSqrtDegL4 (idx : (⟨S400000, .i32⟩ : BufTy).Contents (Elt F)) : (⟨S300000, .f32⟩ : BufTy).Contents (Elt F) :=
  Host.rsqrt (maximumf (broadcastInDim S300000 ![] bcast_S_S300000 (id (constant S_ .f32 0x3F800000#32)))
    (Host.scatterAdd scatter_S300000_S400000x1_S400000_n_0_0_1
      (broadcastInDim S300000 ![] bcast_S_S300000 (constant S_ .f32 0x00000000#32))
      (broadcastInDim S400000x1 ![0] bcast_S400000_S400000x1_0 idx)
      (broadcastInDim S400000 ![] bcast_S_S400000 (constant S_ .f32 0x3F800000#32))))

/-- A negative source index among 600000 counts from the end of the 300000 loan rows. -/
def wrapL6 (src : (⟨S600000, .i32⟩ : BufTy).Contents (Elt F)) : (⟨S600000, .i32⟩ : BufTy).Contents (Elt F) :=
  select (cmpi .slt src (broadcastInDim S600000 ![] bcast_S_S600000 (constantI S_ 32 0#32)))
    (addi src (broadcastInDim S600000 ![] bcast_S_S600000 (constantI S_ 32 300000#32))) src

/-- A negative source index among 600000 counts from the end of the 150000 client rows. -/
def wrapC6 (src : (⟨S600000, .i32⟩ : BufTy).Contents (Elt F)) : (⟨S600000, .i32⟩ : BufTy).Contents (Elt F) :=
  select (cmpi .slt src (broadcastInDim S600000 ![] bcast_S_S600000 (constantI S_ 32 0#32)))
    (addi src (broadcastInDim S600000 ![] bcast_S_S600000 (constantI S_ 32 150000#32))) src

/-- A negative source index among 400000 counts from the end of the 300000 loan rows. -/
def wrapL4 (src : (⟨S400000, .i32⟩ : BufTy).Contents (Elt F)) : (⟨S400000, .i32⟩ : BufTy).Contents (Elt F) :=
  select (cmpi .slt src (broadcastInDim S400000 ![] bcast_S_S400000 (constantI S_ 32 0#32)))
    (addi src (broadcastInDim S400000 ![] bcast_S_S400000 (constantI S_ 32 300000#32))) src

/-- Loan rows summed into client rows along 600000 edges, normalised by both degrees. -/
def aggLC (x : (⟨S300000x128, .f32⟩ : BufTy).Contents (Elt F)) (src dst : (⟨S600000, .i32⟩ : BufTy).Contents (Elt F)) : (⟨S150000x128, .f32⟩ : BufTy).Contents (Elt F) :=
  mulf
    (Host.scatterAdd scatter_S150000x128_S600000x1_S600000x128_1_0_0_1
      (broadcastInDim S150000x128 ![] bcast_S_S150000x128 (constant S_ .f32 0x00000000#32))
      (broadcastInDim S600000x1 ![0] bcast_S600000_S600000x1_0 dst)
      (Host.gather gather_S300000x128_S600000x1_S600000x128_1_0_n_n_0_1_1128
        (mulf x (broadcastInDim S300000x128 ![0, 1] bcast_S300000x1_S300000x128_0_1
          (broadcastInDim S300000x1 ![0] bcast_S300000_S300000x1_0 (invSqrtDegL6 src))))
        (broadcastInDim S600000x1 ![0] bcast_S600000_S600000x1_0 (wrapL6 src))))
    (broadcastInDim S150000x128 ![0, 1] bcast_S150000x1_S150000x128_0_1
      (broadcastInDim S150000x1 ![0] bcast_S150000_S150000x1_0 (invSqrtDegC6 dst)))

/-- Client rows summed into loan rows along 600000 edges, normalised by both degrees. -/
def aggCL (x : (⟨S150000x128, .f32⟩ : BufTy).Contents (Elt F)) (src dst : (⟨S600000, .i32⟩ : BufTy).Contents (Elt F)) : (⟨S300000x128, .f32⟩ : BufTy).Contents (Elt F) :=
  mulf
    (Host.scatterAdd scatter_S300000x128_S600000x1_S600000x128_1_0_0_1
      (broadcastInDim S300000x128 ![] bcast_S_S300000x128 (constant S_ .f32 0x00000000#32))
      (broadcastInDim S600000x1 ![0] bcast_S600000_S600000x1_0 dst)
      (Host.gather gather_S150000x128_S600000x1_S600000x128_1_0_n_n_0_1_1128
        (mulf x (broadcastInDim S150000x128 ![0, 1] bcast_S150000x1_S150000x128_0_1
          (broadcastInDim S150000x1 ![0] bcast_S150000_S150000x1_0 (invSqrtDegC6 src))))
        (broadcastInDim S600000x1 ![0] bcast_S600000_S600000x1_0 (wrapC6 src))))
    (broadcastInDim S300000x128 ![0, 1] bcast_S300000x1_S300000x128_0_1
      (broadcastInDim S300000x1 ![0] bcast_S300000_S300000x1_0 (invSqrtDegL6 dst)))

/-- Loan rows summed into loan rows along 400000 edges, normalised by both degrees. -/
def aggLL (x : (⟨S300000x128, .f32⟩ : BufTy).Contents (Elt F)) (src dst : (⟨S400000, .i32⟩ : BufTy).Contents (Elt F)) : (⟨S300000x128, .f32⟩ : BufTy).Contents (Elt F) :=
  mulf
    (Host.scatterAdd scatter_S300000x128_S400000x1_S400000x128_1_0_0_1
      (broadcastInDim S300000x128 ![] bcast_S_S300000x128 (constant S_ .f32 0x00000000#32))
      (broadcastInDim S400000x1 ![0] bcast_S400000_S400000x1_0 dst)
      (Host.gather gather_S300000x128_S400000x1_S400000x128_1_0_n_n_0_1_1128
        (mulf x (broadcastInDim S300000x128 ![0, 1] bcast_S300000x1_S300000x128_0_1
          (broadcastInDim S300000x1 ![0] bcast_S300000_S300000x1_0 (invSqrtDegL4 src))))
        (broadcastInDim S400000x1 ![0] bcast_S400000_S400000x1_0 (wrapL4 src))))
    (broadcastInDim S300000x128 ![0, 1] bcast_S300000x1_S300000x128_0_1
      (broadcastInDim S300000x1 ![0] bcast_S300000_S300000x1_0 (invSqrtDegL4 dst)))

end Cert.Rgcn

end
-- ==== Proof.EntryArgs.lean ====
/-
  The argument arrays are never written: no host operation's result buffer and no region's output array is an
  argument. So at every boundary between @main's segments an argument's buffer holds its launch contents. Stated here
  for the boundaries and the arguments the value proof reads: before the first region, after it, before the second,
  after it, before the third.
-/
import proofs.«108617_j11038065950752_1_alg».proof.Proof.Gen.KernelIdeal.Frame
import proofs.«108617_j11038065950752_1_alg».proof.Proof.Gen.ReferenceIdeal
import proofs.«108617_j11038065950752_1_alg».proof.Proof.Chains
import Idealize.ShloMosaic.Lib.StableHlo.Run

noncomputable section

namespace Cert.KernelIdeal.Entry

open Idealize.ShloMosaic Idealize.ShloMosaic.TcCoe Idealize.ShloMosaic.StableHlo Idealize.SL.Sem
open Cert.KernelIdeal Cert.KernelIdeal.Gen Cert.KernelIdeal.Facts₀

variable {F : FTy → Type} [FloatOps F]
variable (m : (ℓ : Loc nD τ sig) → Buf (Elt F) ℓ) (ρ : Dev nD → PrngReg)

theorem W5_arg0 (c : Dev nD) : W5 m ρ c (Proc.devRef .tc main_arg0) = m ((c : Thread nD τ).loc main_arg0) := by
  dsimp only [W5, W4, W3, W2, W1, W0, hostOps0, hostOps0_1, hostOps0_2, hostOps0_3, hostOps0_4]
  after_results_simp <;> rfl
theorem W6_arg0 (c : Dev nD) : W6 m ρ c (Proc.devRef .tc main_arg0) = m ((c : Thread nD τ).loc main_arg0) :=
  (W6_of_ne m ρ c main_arg0 (by decide)).trans (W5_arg0 m ρ c)

theorem W5_arg2 (c : Dev nD) : W5 m ρ c (Proc.devRef .tc main_arg2) = m ((c : Thread nD τ).loc main_arg2) := by
  dsimp only [W5, W4, W3, W2, W1, W0, hostOps0, hostOps0_1, hostOps0_2, hostOps0_3, hostOps0_4]
  after_results_simp <;> rfl
theorem W6_arg2 (c : Dev nD) : W6 m ρ c (Proc.devRef .tc main_arg2) = m ((c : Thread nD τ).loc main_arg2) :=
  (W6_of_ne m ρ c main_arg2 (by decide)).trans (W5_arg2 m ρ c)

theorem W5_arg3 (c : Dev nD) : W5 m ρ c (Proc.devRef .tc main_arg3) = m ((c : Thread nD τ).loc main_arg3) := by
  dsimp only [W5, W4, W3, W2, W1, W0, hostOps0, hostOps0_1, hostOps0_2, hostOps0_3, hostOps0_4]
  after_results_simp <;> rfl
theorem W6_arg3 (c : Dev nD) : W6 m ρ c (Proc.devRef .tc main_arg3) = m ((c : Thread nD τ).loc main_arg3) :=
  (W6_of_ne m ρ c main_arg3 (by decide)).trans (W5_arg3 m ρ c)

theorem W5_arg4 (c : Dev nD) : W5 m ρ c (Proc.devRef .tc main_arg4) = m ((c : Thread nD τ).loc main_arg4) := by
  dsimp only [W5, W4, W3, W2, W1, W0, hostOps0, hostOps0_1, hostOps0_2, hostOps0_3, hostOps0_4]
  after_results_simp <;> rfl
theorem W6_arg4 (c : Dev nD) : W6 m ρ c (Proc.devRef .tc main_arg4) = m ((c : Thread nD τ).loc main_arg4) :=
  (W6_of_ne m ρ c main_arg4 (by decide)).trans (W5_arg4 m ρ c)

theorem W5_arg5 (c : Dev nD) : W5 m ρ c (Proc.devRef .tc main_arg5) = m ((c : Thread nD τ).loc main_arg5) := by
  dsimp only [W5, W4, W3, W2, W1, W0, hostOps0, hostOps0_1, hostOps0_2, hostOps0_3, hostOps0_4]
  after_results_simp <;> rfl
theorem W6_arg5 (c : Dev nD) : W6 m ρ c (Proc.devRef .tc main_arg5) = m ((c : Thread nD τ).loc main_arg5) :=
  (W6_of_ne m ρ c main_arg5 (by decide)).trans (W5_arg5 m ρ c)

theorem W5_arg6 (c : Dev nD) : W5 m ρ c (Proc.devRef .tc main_arg6) = m ((c : Thread nD τ).loc main_arg6) := by
  dsimp only [W5, W4, W3, W2, W1, W0, hostOps0, hostOps0_1, hostOps0_2, hostOps0_3, hostOps0_4]
  after_results_simp <;> rfl
theorem W6_arg6 (c : Dev nD) : W6 m ρ c (Proc.devRef .tc main_arg6) = m ((c : Thread nD τ).loc main_arg6) :=
  (W6_of_ne m ρ c main_arg6 (by decide)).trans (W5_arg6 m ρ c)

theorem W5_arg7 (c : Dev nD) : W5 m ρ c (Proc.devRef .tc main_arg7) = m ((c : Thread nD τ).loc main_arg7) := by
  dsimp only [W5, W4, W3, W2, W1, W0, hostOps0, hostOps0_1, hostOps0_2, hostOps0_3, hostOps0_4]
  after_results_simp <;> rfl
theorem W6_arg7 (c : Dev nD) : W6 m ρ c (Proc.devRef .tc main_arg7) = m ((c : Thread nD τ).loc main_arg7) :=
  (W6_of_ne m ρ c main_arg7 (by decide)).trans (W5_arg7 m ρ c)

theorem W5_arg10 (c : Dev nD) : W5 m ρ c (Proc.devRef .tc main_arg10) = m ((c : Thread nD τ).loc main_arg10) := by
  dsimp only [W5, W4, W3, W2, W1, W0, hostOps0, hostOps0_1, hostOps0_2, hostOps0_3, hostOps0_4]
  after_results_simp <;> rfl

theorem W5_arg11 (c : Dev nD) : W5 m ρ c (Proc.devRef .tc main_arg11) = m ((c : Thread nD τ).loc main_arg11) := by
  dsimp only [W5, W4, W3, W2, W1, W0, hostOps0, hostOps0_1, hostOps0_2, hostOps0_3, hostOps0_4]
  after_results_simp <;> rfl
theorem W6_arg11 (c : Dev nD) : W6 m ρ c (Proc.devRef .tc main_arg11) = m ((c : Thread nD τ).loc main_arg11) :=
  (W6_of_ne m ρ c main_arg11 (by decide)).trans (W5_arg11 m ρ c)

theorem W5_arg14 (c : Dev nD) : W5 m ρ c (Proc.devRef .tc main_arg14) = m ((c : Thread nD τ).loc main_arg14) := by
  dsimp only [W5, W4, W3, W2, W1, W0, hostOps0, hostOps0_1, hostOps0_2, hostOps0_3, hostOps0_4]
  after_results_simp <;> rfl
theorem W6_arg14 (c : Dev nD) : W6 m ρ c (Proc.devRef .tc main_arg14) = m ((c : Thread nD τ).loc main_arg14) :=
  (W6_of_ne m ρ c main_arg14 (by decide)).trans (W5_arg14 m ρ c)

theorem W5_arg15 (c : Dev nD) : W5 m ρ c (Proc.devRef .tc main_arg15) = m ((c : Thread nD τ).loc main_arg15) := by
  dsimp only [W5, W4, W3, W2, W1, W0, hostOps0, hostOps0_1, hostOps0_2, hostOps0_3, hostOps0_4]
  after_results_simp <;> rfl
theorem W6_arg15 (c : Dev nD) : W6 m ρ c (Proc.devRef .tc main_arg15) = m ((c : Thread nD τ).loc main_arg15) :=
  (W6_of_ne m ρ c main_arg15 (by decide)).trans (W5_arg15 m ρ c)

theorem W5_arg16 (c : Dev nD) : W5 m ρ c (Proc.devRef .tc main_arg16) = m ((c : Thread nD τ).loc main_arg16) := by
  dsimp only [W5, W4, W3, W2, W1, W0, hostOps0, hostOps0_1, hostOps0_2, hostOps0_3, hostOps0_4]
  after_results_simp <;> rfl
theorem W6_arg16 (c : Dev nD) : W6 m ρ c (Proc.devRef .tc main_arg16) = m ((c : Thread nD τ).loc main_arg16) :=
  (W6_of_ne m ρ c main_arg16 (by decide)).trans (W5_arg16 m ρ c)

theorem W5_arg17 (c : Dev nD) : W5 m ρ c (Proc.devRef .tc main_arg17) = m ((c : Thread nD τ).loc main_arg17) := by
  dsimp only [W5, W4, W3, W2, W1, W0, hostOps0, hostOps0_1, hostOps0_2, hostOps0_3, hostOps0_4]
  after_results_simp <;> rfl
theorem W6_arg17 (c : Dev nD) : W6 m ρ c (Proc.devRef .tc main_arg17) = m ((c : Thread nD τ).loc main_arg17) :=
  (W6_of_ne m ρ c main_arg17 (by decide)).trans (W5_arg17 m ρ c)

theorem W5_arg18 (c : Dev nD) : W5 m ρ c (Proc.devRef .tc main_arg18) = m ((c : Thread nD τ).loc main_arg18) := by
  dsimp only [W5, W4, W3, W2, W1, W0, hostOps0, hostOps0_1, hostOps0_2, hostOps0_3, hostOps0_4]
  after_results_simp <;> rfl
theorem W6_arg18 (c : Dev nD) : W6 m ρ c (Proc.devRef .tc main_arg18) = m ((c : Thread nD τ).loc main_arg18) :=
  (W6_of_ne m ρ c main_arg18 (by decide)).trans (W5_arg18 m ρ c)

theorem W5_arg19 (c : Dev nD) : W5 m ρ c (Proc.devRef .tc main_arg19) = m ((c : Thread nD τ).loc main_arg19) := by
  dsimp only [W5, W4, W3, W2, W1, W0, hostOps0, hostOps0_1, hostOps0_2, hostOps0_3, hostOps0_4]
  after_results_simp <;> rfl
theorem W6_arg19 (c : Dev nD) : W6 m ρ c (Proc.devRef .tc main_arg19) = m ((c : Thread nD τ).loc main_arg19) :=
  (W6_of_ne m ρ c main_arg19 (by decide)).trans (W5_arg19 m ρ c)

theorem W15_arg0 (c : Dev nD) : W15 m ρ c (Proc.devRef .tc main_arg0) = m ((c : Thread nD τ).loc main_arg0) := by
  refine Eq.trans ?_ (W6_arg0 m ρ c)
  dsimp only [W15, W14, W13, W12, W11, W10, W9, W8, W7, hostOps1, hostOps1_1, hostOps1_2, hostOps1_3, hostOps1_4, hostOps1_5, hostOps1_6, hostOps1_7, hostOps1_8]
  after_results_simp <;> rfl
theorem W16_arg0 (c : Dev nD) : W16 m ρ c (Proc.devRef .tc main_arg0) = m ((c : Thread nD τ).loc main_arg0) :=
  (W16_of_ne m ρ c main_arg0 (by decide)).trans (W15_arg0 m ρ c)

theorem W15_arg4 (c : Dev nD) : W15 m ρ c (Proc.devRef .tc main_arg4) = m ((c : Thread nD τ).loc main_arg4) := by
  refine Eq.trans ?_ (W6_arg4 m ρ c)
  dsimp only [W15, W14, W13, W12, W11, W10, W9, W8, W7, hostOps1, hostOps1_1, hostOps1_2, hostOps1_3, hostOps1_4, hostOps1_5, hostOps1_6, hostOps1_7, hostOps1_8]
  after_results_simp <;> rfl
theorem W16_arg4 (c : Dev nD) : W16 m ρ c (Proc.devRef .tc main_arg4) = m ((c : Thread nD τ).loc main_arg4) :=
  (W16_of_ne m ρ c main_arg4 (by decide)).trans (W15_arg4 m ρ c)

theorem W15_arg5 (c : Dev nD) : W15 m ρ c (Proc.devRef .tc main_arg5) = m ((c : Thread nD τ).loc main_arg5) := by
  refine Eq.trans ?_ (W6_arg5 m ρ c)
  dsimp only [W15, W14, W13, W12, W11, W10, W9, W8, W7, hostOps1, hostOps1_1, hostOps1_2, hostOps1_3, hostOps1_4, hostOps1_5, hostOps1_6, hostOps1_7, hostOps1_8]
  after_results_simp <;> rfl
theorem W16_arg5 (c : Dev nD) : W16 m ρ c (Proc.devRef .tc main_arg5) = m ((c : Thread nD τ).loc main_arg5) :=
  (W16_of_ne m ρ c main_arg5 (by decide)).trans (W15_arg5 m ρ c)

theorem W15_arg14 (c : Dev nD) : W15 m ρ c (Proc.devRef .tc main_arg14) = m ((c : Thread nD τ).loc main_arg14) := by
  refine Eq.trans ?_ (W6_arg14 m ρ c)
  dsimp only [W15, W14, W13, W12, W11, W10, W9, W8, W7, hostOps1, hostOps1_1, hostOps1_2, hostOps1_3, hostOps1_4, hostOps1_5, hostOps1_6, hostOps1_7, hostOps1_8]
  after_results_simp <;> rfl

theorem W15_arg16 (c : Dev nD) : W15 m ρ c (Proc.devRef .tc main_arg16) = m ((c : Thread nD τ).loc main_arg16) := by
  refine Eq.trans ?_ (W6_arg16 m ρ c)
  dsimp only [W15, W14, W13, W12, W11, W10, W9, W8, W7, hostOps1, hostOps1_1, hostOps1_2, hostOps1_3, hostOps1_4, hostOps1_5, hostOps1_6, hostOps1_7, hostOps1_8]
  after_results_simp <;> rfl
theorem W16_arg16 (c : Dev nD) : W16 m ρ c (Proc.devRef .tc main_arg16) = m ((c : Thread nD τ).loc main_arg16) :=
  (W16_of_ne m ρ c main_arg16 (by decide)).trans (W15_arg16 m ρ c)

theorem W15_arg17 (c : Dev nD) : W15 m ρ c (Proc.devRef .tc main_arg17) = m ((c : Thread nD τ).loc main_arg17) := by
  refine Eq.trans ?_ (W6_arg17 m ρ c)
  dsimp only [W15, W14, W13, W12, W11, W10, W9, W8, W7, hostOps1, hostOps1_1, hostOps1_2, hostOps1_3, hostOps1_4, hostOps1_5, hostOps1_6, hostOps1_7, hostOps1_8]
  after_results_simp <;> rfl
theorem W16_arg17 (c : Dev nD) : W16 m ρ c (Proc.devRef .tc main_arg17) = m ((c : Thread nD τ).loc main_arg17) :=
  (W16_of_ne m ρ c main_arg17 (by decide)).trans (W15_arg17 m ρ c)

theorem W15_arg18 (c : Dev nD) : W15 m ρ c (Proc.devRef .tc main_arg18) = m ((c : Thread nD τ).loc main_arg18) := by
  refine Eq.trans ?_ (W6_arg18 m ρ c)
  dsimp only [W15, W14, W13, W12, W11, W10, W9, W8, W7, hostOps1, hostOps1_1, hostOps1_2, hostOps1_3, hostOps1_4, hostOps1_5, hostOps1_6, hostOps1_7, hostOps1_8]
  after_results_simp <;> rfl

theorem W21_arg16 (c : Dev nD) : W21 m ρ c (Proc.devRef .tc main_arg16) = m ((c : Thread nD τ).loc main_arg16) := by
  refine Eq.trans ?_ (W16_arg16 m ρ c)
  dsimp only [W21, W20, W19, W18, W17, hostOps2, hostOps2_1, hostOps2_2, hostOps2_3, hostOps2_4]
  after_results_simp <;> rfl

end Cert.KernelIdeal.Entry

end
-- ==== Proof.Entry0.lean ====
/-
  What the first region finds in its operand arrays. Before it @main computes, on the host, the loan rows summed
  into the client rows along the loan→client edges and normalised by both degrees — the named chain `aggLC` of the
  loan features and the two edge lists — and recasts the first layer's bias vector as a one-row array.
-/
import proofs.«108617_j11038065950752_1_alg».proof.Proof.Gen.KernelIdeal.Frame
import proofs.«108617_j11038065950752_1_alg».proof.Proof.Gen.ReferenceIdeal
import proofs.«108617_j11038065950752_1_alg».proof.Proof.Chains
import Idealize.ShloMosaic.Lib.StableHlo.Run

noncomputable section

namespace Cert.KernelIdeal.Entry

open Idealize.ShloMosaic Idealize.ShloMosaic.TcCoe Idealize.ShloMosaic.StableHlo Idealize.SL.Sem
open Cert.KernelIdeal Cert.KernelIdeal.Gen Cert.KernelIdeal.Facts₀

variable {F : FTy → Type} [FloatOps F]
variable (m : (ℓ : Loc nD τ sig) → Buf (Elt F) ℓ) (ρ : Dev nD → PrngReg)

/-- The first region's row operand is the normalised neighbourhood sum of the loan features. -/
theorem W5_v26 (c : Dev nD) :
    W5 m ρ c (Proc.devRef .tc main_v26) = Cert.Rgcn.aggLC (m ((c : Thread nD τ).loc main_arg0)) (m ((c : Thread nD τ).loc main_arg4)) (m ((c : Thread nD τ).loc main_arg5)) := by
  dsimp only [W5, W4, W3, W2, W1, W0, hostOps0, hostOps0_1, hostOps0_2, hostOps0_3, hostOps0_4]
  after_results_simp
  rfl

/-- Its bias operand is the bias vector recast as one row. -/
theorem W5_v27 (c : Dev nD) :
    W5 m ρ c (Proc.devRef .tc main_v27) = shapeCast S1x128 (m ((c : Thread nD τ).loc main_arg11)) Gen.shapeCasts_S128_S1x128 := by
  dsimp only [W5, W4, W3, W2, W1, W0, hostOps0, hostOps0_1, hostOps0_2, hostOps0_3, hostOps0_4]
  after_results_simp
  rfl

end Cert.KernelIdeal.Entry

end
-- ==== Proof.Entry1.lean ====
/-
  What the second region finds in its operand arrays, from the contents at the first region's exit. Between the two
  regions @main computes, on the host, the client rows the first region left (the hidden layer) summed into the loan
  rows along the client→loan edges (`aggCL`), the loan features summed into the loan rows along the loan→loan edges
  (`aggLL`), both normalised by their degrees, and recasts the two bias vectors as one-row arrays.
-/
import proofs.«108617_j11038065950752_1_alg».proof.Proof.Gen.KernelIdeal.Frame
import proofs.«108617_j11038065950752_1_alg».proof.Proof.Gen.ReferenceIdeal
import proofs.«108617_j11038065950752_1_alg».proof.Proof.Chains
import Idealize.ShloMosaic.Lib.StableHlo.Run

noncomputable section

namespace Cert.KernelIdeal.Entry

open Idealize.ShloMosaic Idealize.ShloMosaic.TcCoe Idealize.ShloMosaic.StableHlo Idealize.SL.Sem
open Cert.KernelIdeal Cert.KernelIdeal.Gen Cert.KernelIdeal.Facts₀

variable {F : FTy → Type} [FloatOps F]
variable (m : (ℓ : Loc nD τ sig) → Buf (Elt F) ℓ) (ρ : Dev nD → PrngReg)

/-- The first row operand: the hidden client rows' normalised sum into the loan rows. -/
theorem W15_v55 (c : Dev nD) :
    W15 m ρ c (Proc.devRef .tc main_v55) = Cert.Rgcn.aggCL (W6 m ρ c (Proc.devRef .tc main_v28)) (W6 m ρ c (Proc.devRef .tc main_arg2)) (W6 m ρ c (Proc.devRef .tc main_arg3)) := by
  dsimp only [W15, W14, W13, W12, W11, W10, W9, W8, W7, hostOps1, hostOps1_1, hostOps1_2, hostOps1_3, hostOps1_4, hostOps1_5, hostOps1_6, hostOps1_7, hostOps1_8]
  after_results_simp
  rfl

/-- The second row operand: the loan features' normalised sum into the loan rows. -/
theorem W15_v82 (c : Dev nD) :
    W15 m ρ c (Proc.devRef .tc main_v82) = Cert.Rgcn.aggLL (W6 m ρ c (Proc.devRef .tc main_arg0)) (W6 m ρ c (Proc.devRef .tc main_arg6)) (W6 m ρ c (Proc.devRef .tc main_arg7)) := by
  dsimp only [W15, W14, W13, W12, W11, W10, W9, W8, W7, hostOps1, hostOps1_1, hostOps1_2, hostOps1_3, hostOps1_4, hostOps1_5, hostOps1_6, hostOps1_7, hostOps1_8]
  after_results_simp
  rfl

/-- The two bias operands: the bias vectors recast as one row each. -/
theorem W15_v83 (c : Dev nD) :
    W15 m ρ c (Proc.devRef .tc main_v83) = shapeCast S1x128 (W6 m ρ c (Proc.devRef .tc main_arg15)) Gen.shapeCasts_S128_S1x128 := by
  dsimp only [W15, W14, W13, W12, W11, W10, W9, W8, W7, hostOps1, hostOps1_1, hostOps1_2, hostOps1_3, hostOps1_4, hostOps1_5, hostOps1_6, hostOps1_7, hostOps1_8]
  after_results_simp
  rfl
theorem W15_v84 (c : Dev nD) :
    W15 m ρ c (Proc.devRef .tc main_v84) = shapeCast S1x128 (W6 m ρ c (Proc.devRef .tc main_arg19)) Gen.shapeCasts_S128_S1x128 := by
  dsimp only [W15, W14, W13, W12, W11, W10, W9, W8, W7, hostOps1, hostOps1_1, hostOps1_2, hostOps1_3, hostOps1_4, hostOps1_5, hostOps1_6, hostOps1_7, hostOps1_8]
  after_results_simp
  rfl

end Cert.KernelIdeal.Entry

end
-- ==== Proof.Entry2.lean ====
/-
  What the third region finds in its operand arrays, from the contents at the second region's exit: the loan
  features summed into the client rows along the loan→client edges, normalised (`aggLC` again, of the same
  arguments as before the first region), and the second layer's client bias recast as one row. The second region's
  output array is not touched on the way.
-/
import proofs.«108617_j11038065950752_1_alg».proof.Proof.Gen.KernelIdeal.Frame
import proofs.«108617_j11038065950752_1_alg».proof.Proof.Gen.ReferenceIdeal
import proofs.«108617_j11038065950752_1_alg».proof.Proof.Chains
import Idealize.ShloMosaic.Lib.StableHlo.Run

noncomputable section

namespace Cert.KernelIdeal.Entry

open Idealize.ShloMosaic Idealize.ShloMosaic.TcCoe Idealize.ShloMosaic.StableHlo Idealize.SL.Sem
open Cert.KernelIdeal Cert.KernelIdeal.Gen Cert.KernelIdeal.Facts₀

variable {F : FTy → Type} [FloatOps F]
variable (m : (ℓ : Loc nD τ sig) → Buf (Elt F) ℓ) (ρ : Dev nD → PrngReg)

theorem W21_v112 (c : Dev nD) :
    W21 m ρ c (Proc.devRef .tc main_v112) = Cert.Rgcn.aggLC (W16 m ρ c (Proc.devRef .tc main_arg0)) (W16 m ρ c (Proc.devRef .tc main_arg4)) (W16 m ρ c (Proc.devRef .tc main_arg5)) := by
  dsimp only [W21, W20, W19, W18, W17, hostOps2, hostOps2_1, hostOps2_2, hostOps2_3, hostOps2_4]
  after_results_simp
  rfl

theorem W21_v113 (c : Dev nD) :
    W21 m ρ c (Proc.devRef .tc main_v113) = shapeCast S1x128 (W16 m ρ c (Proc.devRef .tc main_arg17)) Gen.shapeCasts_S128_S1x128 := by
  dsimp only [W21, W20, W19, W18, W17, hostOps2, hostOps2_1, hostOps2_2, hostOps2_3, hostOps2_4]
  after_results_simp
  rfl

/-- The second region's output array passes the host stretch before the third region unchanged. -/
theorem W21_v85 (c : Dev nD) :
    W21 m ρ c (Proc.devRef .tc main_v85) = W16 m ρ c (Proc.devRef .tc main_v85) := by
  dsimp only [W21, W20, W19, W18, W17, hostOps2, hostOps2_1, hostOps2_2, hostOps2_3, hostOps2_4]
  after_results_simp <;> rfl

end Cert.KernelIdeal.Entry

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.LibBcastChain.lean ====
/-
  A vector spread over a matrix by two `broadcast_in_dim`s, read at an index.

  jnp spreads a per-row vector `d : [n]` over an `[n, c]` array as `[n] → [n,1]` (dims = [0]) then `[n,1] → [n,c]`
  (dims = [0,1]), and a per-column vector `b : [c]` as `[c] → [1,c]` (dims = [1]) then `[1,c] → [n,c]` (dims = [0,1]).
  Read at `(p, q)` the first is `d[p]` and the second `b[q]`; a scalar spread over any shape (dims = []) reads the scalar
  everywhere. Stated over literal-extent index constructors, for any extents (a unit extent included).
-/
import Idealize.ShloMosaic.Lib.Pipeline.Value
import Idealize.ShloMosaic.Lib.ValueIdx

noncomputable section

namespace Cert.Lib.BcastChain

open Idealize.ShloMosaic Idealize.ShloMosaic.ValueIdx

variable {α : Type}

/-- A vector spread over the columns by `[n] → [n,1] → [n,c]` reads, at `(p, q)`, its entry `p`. -/
theorem overCols_apply {n c : ℕ} (d : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, c]⟩ ![0, 1]) (p : Fin n) (q : Fin c) :
    broadcastInDim ⟨2, ![n, c]⟩ ![0, 1] h2 (broadcastInDim ⟨2, ![n, 1]⟩ ![0] h1 d) (ix2 p q) = d (ix1 p) := by
  rw [broadcastInDim_apply ![0, 1] h2 _ (ix2 p q) (ix2 p (0 : Fin 1)) (fun a => by
    match a with
    | ⟨0, _⟩ =>
      show p.val = if n = 1 then 0 else p.val
      split
      · have := p.isLt; omega
      · rfl
    | ⟨1, _⟩ => show 0 = if (1 : ℕ) = 1 then 0 else q.val; rw [if_pos rfl])]
  exact broadcastInDim_apply ![0] h1 d (ix2 p (0 : Fin 1)) (ix1 p) (fun a => by
    match a with
    | ⟨0, _⟩ =>
      show p.val = if n = 1 then 0 else p.val
      split
      · have := p.isLt; omega
      · rfl)

/-- A vector spread over the rows by `[c] → [1,c] → [n,c]` reads, at `(p, q)`, its entry `q`. -/
theorem overRows_apply {n c : ℕ} (b : (⟨1, ![c]⟩ : Shape).Idx → α)
    (h3 : (⟨1, ![c]⟩ : Shape).BroadcastsInDim ⟨2, ![1, c]⟩ ![1])
    (h4 : (⟨2, ![1, c]⟩ : Shape).BroadcastsInDim ⟨2, ![n, c]⟩ ![0, 1]) (p : Fin n) (q : Fin c) :
    broadcastInDim ⟨2, ![n, c]⟩ ![0, 1] h4 (broadcastInDim ⟨2, ![1, c]⟩ ![1] h3 b) (ix2 p q) = b (ix1 q) := by
  rw [broadcastInDim_apply ![0, 1] h4 _ (ix2 p q) (ix2 (0 : Fin 1) q) (fun a => by
    match a with
    | ⟨0, _⟩ => show 0 = if (1 : ℕ) = 1 then 0 else p.val; rw [if_pos rfl]
    | ⟨1, _⟩ =>
      show q.val = if c = 1 then 0 else q.val
      split
      · have := q.isLt; omega
      · rfl)]
  exact broadcastInDim_apply ![1] h3 b (ix2 (0 : Fin 1) q) (ix1 q) (fun a => by
    match a with
    | ⟨0, _⟩ =>
      show q.val = if c = 1 then 0 else q.val
      split
      · have := q.isLt; omega
      · rfl)

/-- A scalar spread over any shape reads the scalar everywhere. -/
theorem overAll_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 (fun a => a.elim0)

end Cert.Lib.BcastChain

end
-- ==== Proof.LibBiasRect.lean ====
/-
  A bias row added to every row of an array, then rectified (`relu (a + b)`), on the extended reals, for any extents.

  `biasRect a b` is the array whose entry `(p, q)` is `max (a[p,q] + b[0,q]) 0` for a one-row bias `b : [1, c]`;
  `rectified a b` is the same with the bias a vector `b : [c]`. A block of rows of `biasRect a b` is `biasRect` of that
  block of `a` with the same bias row (`biasRect_congr`). The vector form is reached from the row form when the row
  is a recast vector (`biasRect_cast`), and it is what the host spells as a `maximum` of a sum with the vector spread
  `[c] → [1, c] → [n, c]` against a spread zero (`host_rectified`). The zero stays the word `0x00000000` read as a float.
-/
import Idealize.ShloMosaic.Lib.ValueIdx
import Idealize.ShloMosaic.Lib.ValueLayout
import Idealize.ShloMosaic.PureOps.Ideal.Laws
import proofs.«108617_j11038065950752_1_alg».proof.Proof.LibBcastChain

noncomputable section

namespace Cert.Lib.BiasRect

open Idealize.ShloMosaic Idealize.ShloMosaic.ValueIdx

/-- A one-row bias added to every row, then the maximum with zero: entry `(p, q)` is `max (a[p,q] + b[0,q]) 0`. -/
def biasRect {n c : ℕ} (a : (⟨2, ![n, c]⟩ : Shape).Idx → EReal) (b : (⟨2, ![1, c]⟩ : Shape).Idx → EReal) :
    (⟨2, ![n, c]⟩ : Shape).Idx → EReal :=
  fun j => max (a j + b (ix2 (0 : Fin 1) (j 1))) (Ideal.ofBits .f32 0x00000000#32)

/-- The same with the bias a vector: entry `(p, q)` is `max (a[p,q] + b[q]) 0`. -/
def rectified {n c : ℕ} (a : (⟨2, ![n, c]⟩ : Shape).Idx → EReal) (b : (⟨1, ![c]⟩ : Shape).Idx → EReal) :
    (⟨2, ![n, c]⟩ : Shape).Idx → EReal :=
  fun j => max (a j + b (ix1 (j 1))) (Ideal.ofBits .f32 0x00000000#32)

/-- Two such arrays agree at two indices when the entries read there agree: the array's entry and the bias entry of
    the same column. In particular a block of rows of `biasRect a b` is `biasRect` of the block with the same bias. -/
theorem biasRect_congr {n n' c c' : ℕ} (a : (⟨2, ![n, c]⟩ : Shape).Idx → EReal) (b : (⟨2, ![1, c]⟩ : Shape).Idx → EReal)
    (a' : (⟨2, ![n', c']⟩ : Shape).Idx → EReal) (b' : (⟨2, ![1, c']⟩ : Shape).Idx → EReal)
    (j' : (⟨2, ![n', c']⟩ : Shape).Idx) (j : (⟨2, ![n, c]⟩ : Shape).Idx)
    (ha : a' j' = a j) (hb : b' (ix2 (0 : Fin 1) (j' 1)) = b (ix2 (0 : Fin 1) (j 1))) :
    biasRect a' b' j' = biasRect a b j := by
  unfold biasRect
  rw [ha, hb]

/-- With the bias row a recast vector the row form is the vector form. -/
theorem biasRect_cast {n c : ℕ} (a : (⟨2, ![n, c]⟩ : Shape).Idx → EReal) (b : (⟨1, ![c]⟩ : Shape).Idx → EReal)
    (h : (⟨1, ![c]⟩ : Shape).ShapeCasts ⟨2, ![1, c]⟩) :
    biasRect a (shapeCast ⟨2, ![1, c]⟩ b h) = rectified a b := by
  funext j
  unfold biasRect rectified
  rw [shapeCast_a_1a_apply b h (0 : Fin 1) (j 1)]

/-- The host's spelling: the vector spread over the rows by two `broadcast_in_dim`s, added, and the maximum taken with
    a zero spread from a scalar. -/
theorem host_rectified {n c : ℕ} (a : FVec Ideal ⟨2, ![n, c]⟩ .f32) (b : FVec Ideal ⟨1, ![c]⟩ .f32)
    (h3 : (⟨1, ![c]⟩ : Shape).BroadcastsInDim ⟨2, ![1, c]⟩ ![1])
    (h4 : (⟨2, ![1, c]⟩ : Shape).BroadcastsInDim ⟨2, ![n, c]⟩ ![0, 1])
    (h0 : (⟨0, ![]⟩ : Shape).BroadcastsInDim ⟨2, ![n, c]⟩ ![]) :
    maximumf (addf a (broadcastInDim ⟨2, ![n, c]⟩ ![0, 1] h4 (broadcastInDim ⟨2, ![1, c]⟩ ![1] h3 b)))
      (broadcastInDim ⟨2, ![n, c]⟩ ![] h0 (constant (F := Ideal) ⟨0, ![]⟩ .f32 0x00000000#32)) = rectified a b := by
  funext j
  obtain ⟨p, q, rfl⟩ : ∃ (p : Fin n) (q : Fin c), j = ix2 p q := ⟨j 0, j 1, eq_ix2 j⟩
  rw [maximumf_apply, addf_apply, Cert.Lib.BcastChain.overRows_apply b h3 h4 p q,
    Cert.Lib.BcastChain.overAll_apply _ _ h0 (ix2 p q), constant_apply]
  rfl

end Cert.Lib.BiasRect

end
-- ==== Proof.LibBiasRow.lean ====
/-
  A bias row added to every row of an array (`a + b`, no rectification), on the extended reals, for any extents.

  `biasRow a b` is the array whose entry `(p, q)` is `a[p,q] + b[0,q]` for a one-row bias `b : [1, c]`;
  `biased a b` is the same with the bias a vector `b : [c]`. A block of rows of `biasRow a b` is `biasRow` of that
  block of `a` with the same bias row (`biasRow_congr`). The vector form is reached from the row form when the row
  is a recast vector (`biasRow_cast`), and it is what the host spells as a sum with the vector spread
  `[c] → [1, c] → [n, c]` (`host_biased`).
-/
import Idealize.ShloMosaic.Lib.ValueIdx
import Idealize.ShloMosaic.Lib.ValueLayout
import Idealize.ShloMosaic.PureOps.Ideal.Laws
import proofs.«108617_j11038065950752_1_alg».proof.Proof.LibBcastChain

noncomputable section

namespace Cert.Lib.BiasRow

open Idealize.ShloMosaic Idealize.ShloMosaic.ValueIdx

/-- A one-row bias added to every row: entry `(p, q)` is `a[p,q] + b[0,q]`. -/
def biasRow {n c : ℕ} (a : (⟨2, ![n, c]⟩ : Shape).Idx → EReal) (b : (⟨2, ![1, c]⟩ : Shape).Idx → EReal) :
    (⟨2, ![n, c]⟩ : Shape).Idx → EReal :=
  fun j => a j + b (ix2 (0 : Fin 1) (j 1))

/-- The same with the bias a vector: entry `(p, q)` is `a[p,q] + b[q]`. -/
def biased {n c : ℕ} (a : (⟨2, ![n, c]⟩ : Shape).Idx → EReal) (b : (⟨1, ![c]⟩ : Shape).Idx → EReal) :
    (⟨2, ![n, c]⟩ : Shape).Idx → EReal :=
  fun j => a j + b (ix1 (j 1))

theorem biasRow_apply {n c : ℕ} (a : (⟨2, ![n, c]⟩ : Shape).Idx → EReal) (b : (⟨2, ![1, c]⟩ : Shape).Idx → EReal)
    (j : (⟨2, ![n, c]⟩ : Shape).Idx) : biasRow a b j = a j + b (ix2 (0 : Fin 1) (j 1)) := rfl

/-- Two such arrays agree at two indices when the entries read there agree: the array's entry and the bias entry of
    the same column. In particular a block of rows of `biasRow a b` is `biasRow` of the block with the same bias. -/
theorem biasRow_congr {n n' c c' : ℕ} (a : (⟨2, ![n, c]⟩ : Shape).Idx → EReal) (b : (⟨2, ![1, c]⟩ : Shape).Idx → EReal)
    (a' : (⟨2, ![n', c']⟩ : Shape).Idx → EReal) (b' : (⟨2, ![1, c']⟩ : Shape).Idx → EReal)
    (j' : (⟨2, ![n', c']⟩ : Shape).Idx) (j : (⟨2, ![n, c]⟩ : Shape).Idx)
    (ha : a' j' = a j) (hb : b' (ix2 (0 : Fin 1) (j' 1)) = b (ix2 (0 : Fin 1) (j 1))) :
    biasRow a' b' j' = biasRow a b j := by
  unfold biasRow
  rw [ha, hb]

/-- With the bias row a recast vector the row form is the vector form. -/
theorem biasRow_cast {n c : ℕ} (a : (⟨2, ![n, c]⟩ : Shape).Idx → EReal) (b : (⟨1, ![c]⟩ : Shape).Idx → EReal)
    (h : (⟨1, ![c]⟩ : Shape).ShapeCasts ⟨2, ![1, c]⟩) :
    biasRow a (shapeCast ⟨2, ![1, c]⟩ b h) = biased a b := by
  funext j
  unfold biasRow biased
  rw [shapeCast_a_1a_apply b h (0 : Fin 1) (j 1)]

/-- The host's spelling: the vector spread over the rows by two `broadcast_in_dim`s, added. -/
theorem host_biased {n c : ℕ} (a : FVec Ideal ⟨2, ![n, c]⟩ .f32) (b : FVec Ideal ⟨1, ![c]⟩ .f32)
    (h3 : (⟨1, ![c]⟩ : Shape).BroadcastsInDim ⟨2, ![1, c]⟩ ![1])
    (h4 : (⟨2, ![1, c]⟩ : Shape).BroadcastsInDim ⟨2, ![n, c]⟩ ![0, 1]) :
    addf a (broadcastInDim ⟨2, ![n, c]⟩ ![0, 1] h4 (broadcastInDim ⟨2, ![1, c]⟩ ![1] h3 b)) = biased a b := by
  funext j
  obtain ⟨p, q, rfl⟩ : ∃ (p : Fin n) (q : Fin c), j = ix2 p q := ⟨j 0, j 1, eq_ix2 j⟩
  rw [addf_apply, Cert.Lib.BcastChain.overRows_apply b h3 h4 p q]
  rfl

end Cert.Lib.BiasRow

end
-- ==== Proof.Block0.lean ====
/-
  The first kernel's output array as one function of the arrays it reads.

  The kernel walks 25 row tiles of 6000 rows. At tile `t` it loads rows `6000 t … 6000 t + 5999` of the input
  `[150000, 128]`, the whole weight matrix `[128, 128]` and the whole bias row `[1, 128]`, and stores
  `max (x · w + b) 0` into the same rows of the output. Entry `(r, q)` of the output therefore depends on row `r` of
  the input, column `q` of the weights and entry `q` of the bias, and the output array is the rectified biased
  product of the whole input array.
-/
import proofs.«108617_j11038065950752_1_alg».proof.Proof.Gen.KernelIdeal.Frame
import proofs.«108617_j11038065950752_1_alg».proof.Proof.LibPlainDot
import proofs.«108617_j11038065950752_1_alg».proof.Proof.LibBiasRect
import proofs.«108617_j11038065950752_1_alg».proof.Proof.LibBiasRow
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blocks

open Idealize.ShloMosaic Idealize.ShloMosaic.TcCoe Idealize.ShloMosaic.ValueIdx Cert.KernelIdeal Cert.KernelIdeal.Gen Cert.Lib.PlainDot Cert.Lib.BiasRect Cert.Lib.BiasRow

variable (V : (c : Dev nD) → (b : Ref sig .tc) → Buf (Elt Ideal) ((c : Thread nD τ).loc b))

/-- The zero offsets of a whole-buffer access, as a constant function. -/
theorem zeros2 : (![0, 0] : Fin 2 → Nat) = fun _ => 0 := funext fun a => by fin_cases a <;> rfl

/-- The value a grid point of the first kernel stores, from the three blocks it loads: the block of rows times the
    weight matrix, plus the bias row, rectified. The two casts keep the shape, narrowing to bf16 is the identity on
    extended reals, and the product goes into the zero accumulator. -/
theorem pay0 (x0 : Vec Ideal S6000x128 .f32) (x1 : Vec Ideal S128x128 .f32) (x2 : Vec Ideal S1x128 .f32) :
    k0_pay1 x0 x1 x2 = biasRect (rowsByCols x0 x1) x2 := by
  funext j
  obtain ⟨p, q, rfl⟩ : ∃ (p : Fin 6000) (q : Fin 128), j = ix2 p q := ⟨j 0, j 1, eq_ix2 j⟩
  unfold k0_pay1
  simp only [shapeCast_self]
  unfold Idealize.ShloMosaic.matmul
  rw [maximumf_apply, addf_apply, broadcast_apply, broadcastTo_1b_ab_apply,
    matmul_zero_eq dot_S6000x128_S128x128_S6000x128_1_0_0_1_n_n rfl none]
  rfl

/-- The block indices over the grid: at point `t` the row-tiled input and the output are at block `(t, 0)`, the
    weight matrix and the bias row at block `(0, 0)`. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input block at point `t` is rows `6000 t … 6000 t + 5999` of the input array. -/
theorem rows0 (c : Dev nD) (t : Fin cfg0.N) (y : S6000x128.Idx) (k : S150000x128.Idx)
    (hk0 : (k 0).val = t.val * 6000 + (y 0).val) (hk1 : (k 1).val = (y 1).val) :
    (iblk0 V c 0 t : Vec Ideal S6000x128 .f32) y = (V c main_v26 : S150000x128.Idx → EReal) k := by
  obtain ⟨e0, e1, -⟩ := idx0 t
  unfold iblk0
  rw [View.read_apply]
  show V c main_v26 _ = V c main_v26 k
  refine congrArg _ ?_
  funext a
  apply Fin.ext
  match a with
  | ⟨0, _⟩ => show win0_0.index t (0 : Fin 2) * 6000 + 1 * (y 0).val = (k 0).val; rw [e0, hk0]; omega
  | ⟨1, _⟩ => show win0_0.index t (1 : Fin 2) * 128 + 1 * (y 1).val = (k 1).val; rw [e1, hk1]; omega

/-- The weight block at every point is the whole weight matrix. -/
theorem weights0 (c : Dev nD) (t : Fin cfg0.N) :
    (iblk0 V c 1 t : Vec Ideal S128x128 .f32) = (V c main_arg10 : S128x128.Idx → EReal) := by
  obtain ⟨-, -, e0, e1, -⟩ := idx0 t
  funext y
  unfold iblk0
  rw [View.read_apply]
  show V c main_arg10 _ = V c main_arg10 y
  refine congrArg _ ?_
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The bias block at every point is the whole bias row. -/
theorem bias0 (c : Dev nD) (t : Fin cfg0.N) :
    (iblk0 V c 2 t : Vec Ideal S1x128 .f32) = (V c main_v27 : S1x128.Idx → EReal) := by
  obtain ⟨-, -, -, -, e0, e1, -⟩ := idx0 t
  funext y
  unfold iblk0
  rw [View.read_apply]
  show V c main_v27 _ = V c main_v27 y
  refine congrArg _ ?_
  funext a
  apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- Rows of the rectified biased product are the rectified biased product of the rows: if the block `x` holds rows
    `o … o + 5999` of `A`, then entry `j` of the block's result is entry `(o + j 0, j 1)` of the whole array's. -/
theorem rect_rows (A : S150000x128.Idx → EReal) (W : S128x128.Idx → EReal) (b : S1x128.Idx → EReal)
    (x : S6000x128.Idx → EReal) (o : Nat) (j : S6000x128.Idx) (i : S150000x128.Idx)
    (hx : ∀ (y : S6000x128.Idx) (k : S150000x128.Idx), (k 0).val = o + (y 0).val → (k 1).val = (y 1).val → x y = A k)
    (hi0 : (i 0).val = o + (j 0).val) (hi1 : (i 1).val = (j 1).val) :
    biasRect (rowsByCols x W) b j = biasRect (rowsByCols A W) b i := by
  have hc : (j 1 : Fin 128) = (i 1 : Fin 128) := Fin.ext hi1.symm
  refine biasRect_congr _ _ _ _ j i (rowsByCols_congr _ _ _ _ j i (fun k => hx _ _ hi0 rfl) (fun k => ?_)) ?_
  · rw [hc]
  · rw [hc]

/-- What point `t` writes back is block `t` of the rectified biased product of the arrays the region finds. -/
theorem flushed0 (c : Dev nD) (t : Fin cfg0.N) :
    (dat0 (F := Ideal) V c).flushed 3 t = ((cfg0.win 3).blk t).view.read (Elt Ideal)
      (biasRect (rowsByCols (V c main_v26 : S150000x128.Idx → EReal) (V c main_arg10 : S128x128.Idx → EReal)) (V c main_v27 : S1x128.Idx → EReal)) := by
  show (cfg0.win 3).cut (grid0.coords t) ((dat0 V c).after 3 t) = _
  rw [after0_3]
  unfold out0_3
  rw [View.canon_unit_zero zeros2]
  simp only [View.ld_unit_zero (S := S6000x128) zeros2, View.ld_unit_zero (S := S128x128) zeros2, View.ld_unit_zero (S := S1x128) zeros2]
  rw [pay0, weights0, bias0]
  obtain ⟨-, -, -, -, -, -, e0, e1⟩ := idx0 t
  funext j
  rw [View.read_apply]
  show biasRect (rowsByCols (iblk0 V c 0 t : Vec Ideal S6000x128 .f32) (V c main_arg10 : S128x128.Idx → EReal)) (V c main_v27 : S1x128.Idx → EReal) j
    = biasRect (rowsByCols (V c main_v26 : S150000x128.Idx → EReal) (V c main_arg10 : S128x128.Idx → EReal)) (V c main_v27 : S1x128.Idx → EReal) (((cfg0.win 3).blk t).view.emb j)
  refine rect_rows _ _ _ _ (t.val * 6000) j _ (fun y k h0 h1 => rows0 V c t y k h0 h1) ?_ ?_
  · show win0_3.index t (0 : Fin 2) * 6000 + 1 * (j 0).val = t.val * 6000 + (j 0).val; rw [e0]; omega
  · show win0_3.index t (1 : Fin 2) * 128 + 1 * (j 1).val = (j 1).val; rw [e1]; omega

/-- An index of the output array is in point `t`'s block iff each coordinate is in the block's range on its axis. -/
theorem mem_blk0 (t : Fin cfg0.N) (i : S150000x128.Idx) :
    i ∈ ((cfg0.win 3).blk t).view.set ↔ ∀ a : Fin 2, win0_3.index t a * S6000x128.size a ≤ (i a).val ∧ (i a).val < win0_3.index t a * S6000x128.size a + S6000x128.size a := by
  show i ∈ ((View.whole main_v28).slice (win0_3.rect t)).set ↔ _
  rw [View.set_slice_whole, Rect.mem_set_unit]
  exact Iff.rfl

/-- Every row `r` of the output array is in the block of point `r / 6000`, which writes back. -/
theorem cover0 (i : S150000x128.Idx) :
    ∃ t : Fin cfg0.N, (cfg0.win 3).flush t = true ∧ i ∈ ((cfg0.win 3).blk t).view.set := by
  have hi0 : (i 0).val < 150000 := (i 0).isLt
  have hi1 : (i 1).val < 128 := (i 1).isLt
  have hN : cfg0.N = 25 := N_0
  have ht : (i 0).val / 6000 < cfg0.N := by rw [hN]; omega
  obtain ⟨-, -, -, -, -, -, e0, e1⟩ := idx0 ⟨(i 0).val / 6000, ht⟩
  refine ⟨⟨(i 0).val / 6000, ht⟩, flush0_3 _, ?_⟩
  rw [mem_blk0]
  intro a
  match a with
  | ⟨0, _⟩ =>
    show win0_3.index ⟨(i 0).val / 6000, ht⟩ (0 : Fin 2) * 6000 ≤ (i 0).val ∧ (i 0).val < win0_3.index ⟨(i 0).val / 6000, ht⟩ (0 : Fin 2) * 6000 + 6000
    rw [e0]; show (i 0).val / 6000 * 6000 ≤ (i 0).val ∧ (i 0).val < (i 0).val / 6000 * 6000 + 6000; omega
  | ⟨1, _⟩ =>
    show win0_3.index ⟨(i 0).val / 6000, ht⟩ (1 : Fin 2) * 128 ≤ (i 1).val ∧ (i 1).val < win0_3.index ⟨(i 0).val / 6000, ht⟩ (1 : Fin 2) * 128 + 128
    rw [e1]; omega

/-- The output array after the region: the rectified biased product of the whole input array by the weight matrix,
    as one function of the three arrays the region finds. -/
theorem final0 (c : Dev nD) : (dat0 (F := Ideal) V c).arrAt 3 cfg0.N = biasRect (rowsByCols (V c main_v26) (V c main_arg10)) (V c main_v27) :=
  (dat0 V c).arrAt_eq_of_cover 3 _ (fun t _ => flushed0 V c t) cover0

end Cert.KernelIdeal.Blocks

end
-- ==== Proof.Block1.lean ====
/-
  The second kernel's output array as one function of the arrays it reads.

  The kernel walks 50 row tiles of 6000 rows. At tile `t` it loads rows `6000 t … 6000 t + 5999` of two inputs
  `[300000, 128]`, and for each the whole weight matrix `[128, 128]` and the whole bias row `[1, 128]`, and stores
  `(x · w + b) + (x' · w' + b')` into the same rows of the output. Entry `(r, q)` of the output therefore depends on
  row `r` of each input, column `q` of each weight matrix and entry `q` of each bias, and the output array is the
  sum of the two biased products of the whole input arrays.
-/
import proofs.«108617_j11038065950752_1_alg».proof.Proof.Gen.KernelIdeal.Frame
import proofs.«108617_j11038065950752_1_alg».proof.Proof.LibPlainDot
import proofs.«108617_j11038065950752_1_alg».proof.Proof.LibBiasRect
import proofs.«108617_j11038065950752_1_alg».proof.Proof.LibBiasRow
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blocks

open Idealize.ShloMosaic Idealize.ShloMosaic.TcCoe Idealize.ShloMosaic.ValueIdx Cert.KernelIdeal Cert.KernelIdeal.Gen Cert.Lib.PlainDot Cert.Lib.BiasRect Cert.Lib.BiasRow

variable (V : (c : Dev nD) → (b : Ref sig .tc) → Buf (Elt Ideal) ((c : Thread nD τ).loc b))

/-- The zero offsets of a whole-buffer access, as a constant function. -/
theorem zeros2_k1 : (![0, 0] : Fin 2 → Nat) = fun _ => 0 := funext fun a => by fin_cases a <;> rfl

/-- The value a grid point of the second kernel stores, from the six blocks it loads: two biased products added,
    each a block of rows times its weight matrix plus its bias row. The casts keep the shape, narrowing to bf16 is
    the identity on extended reals, and each product goes into the zero accumulator. -/
theorem pay1 (x0 : Vec Ideal S6000x128 .f32) (x1 : Vec Ideal S128x128 .f32) (x2 : Vec Ideal S1x128 .f32)
    (x3 : Vec Ideal S6000x128 .f32) (x4 : Vec Ideal S128x128 .f32) (x5 : Vec Ideal S1x128 .f32) :
    k1_pay1 x0 x1 x2 x3 x4 x5 = fun j => biasRow (rowsByCols x0 x1) x2 j + biasRow (rowsByCols x3 x4) x5 j := by
  funext j
  obtain ⟨p, q, rfl⟩ : ∃ (p : Fin 6000) (q : Fin 128), j = ix2 p q := ⟨j 0, j 1, eq_ix2 j⟩
  unfold k1_pay1
  simp only [shapeCast_self]
  unfold Idealize.ShloMosaic.matmul
  simp only [addf_apply]
  rw [broadcastTo_1b_ab_apply, broadcastTo_1b_ab_apply,
    matmul_zero_eq dot_S6000x128_S128x128_S6000x128_1_0_0_1_n_n rfl none,
    matmul_zero_eq dot_S6000x128_S128x128_S6000x128_1_0_0_1_n_n rfl none]
  rfl

/-- The block indices over the grid: at point `t` the two row-tiled inputs and the output are at block `(t, 0)`, the
    two weight matrices and the two bias rows at block `(0, 0)`. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The first input's block at point `t` is rows `6000 t … 6000 t + 5999` of the first input array. -/
theorem rows1a (c : Dev nD) (t : Fin cfg1.N) (y : S6000x128.Idx) (k : S300000x128.Idx)
    (hk0 : (k 0).val = t.val * 6000 + (y 0).val) (hk1 : (k 1).val = (y 1).val) :
    (iblk1 V c 0 t : Vec Ideal S6000x128 .f32) y = (V c main_v55 : S300000x128.Idx → EReal) k := by
  obtain ⟨e0, e1, -⟩ := idx1 t
  unfold iblk1
  rw [View.read_apply]
  show V c main_v55 _ = V c main_v55 k
  refine congrArg _ ?_
  funext a
  apply Fin.ext
  match a with
  | ⟨0, _⟩ => show win1_0.index t (0 : Fin 2) * 6000 + 1 * (y 0).val = (k 0).val; rw [e0, hk0]; omega
  | ⟨1, _⟩ => show win1_0.index t (1 : Fin 2) * 128 + 1 * (y 1).val = (k 1).val; rw [e1, hk1]; omega

/-- The first weight block at every point is the whole first weight matrix. -/
theorem weights1a (c : Dev nD) (t : Fin cfg1.N) :
    (iblk1 V c 1 t : Vec Ideal S128x128 .f32) = (V c main_arg14 : S128x128.Idx → EReal) := by
  obtain ⟨-, -, e0, e1, -⟩ := idx1 t
  funext y
  unfold iblk1
  rw [View.read_apply]
  show V c main_arg14 _ = V c main_arg14 y
  refine congrArg _ ?_
  funext a
  apply Fin.ext
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

/-- The first bias block at every point is the whole first bias row. -/
theorem bias1a (c : Dev nD) (t : Fin cfg1.N) :
    (iblk1 V c 2 t : Vec Ideal S1x128 .f32) = (V c main_v83 : S1x128.Idx → EReal) := by
  obtain ⟨-, -, -, -, e0, e1, -⟩ := idx1 t
  funext y
  unfold iblk1
  rw [View.read_apply]
  show V c main_v83 _ = V c main_v83 y
  refine congrArg _ ?_
  funext a
  apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- The second input's block at point `t` is rows `6000 t … 6000 t + 5999` of the second input array. -/
theorem rows1b (c : Dev nD) (t : Fin cfg1.N) (y : S6000x128.Idx) (k : S300000x128.Idx)
    (hk0 : (k 0).val = t.val * 6000 + (y 0).val) (hk1 : (k 1).val = (y 1).val) :
    (iblk1 V c 3 t : Vec Ideal S6000x128 .f32) y = (V c main_v82 : S300000x128.Idx → EReal) k := by
  obtain ⟨-, -, -, -, -, -, e0, e1, -⟩ := idx1 t
  unfold iblk1
  rw [View.read_apply]
  show V c main_v82 _ = V c main_v82 k
  refine congrArg _ ?_
  funext a
  apply Fin.ext
  match a with
  | ⟨0, _⟩ => show win1_3.index t (0 : Fin 2) * 6000 + 1 * (y 0).val = (k 0).val; rw [e0, hk0]; omega
  | ⟨1, _⟩ => show win1_3.index t (1 : Fin 2) * 128 + 1 * (y 1).val = (k 1).val; rw [e1, hk1]; omega

/-- The second weight block at every point is the whole second weight matrix. -/
theorem weights1b (c : Dev nD) (t : Fin cfg1.N) :
    (iblk1 V c 4 t : Vec Ideal S128x128 .f32) = (V c main_arg18 : S128x128.Idx → EReal) := by
  obtain ⟨-, -, -, -, -, -, -, -, e0, e1, -⟩ := idx1 t
  funext y
  unfold iblk1
  rw [View.read_apply]
  show V c main_arg18 _ = V c main_arg18 y
  refine congrArg _ ?_
  funext a
  apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- The second bias block at every point is the whole second bias row. -/
theorem bias1b (c : Dev nD) (t : Fin cfg1.N) :
    (iblk1 V c 5 t : Vec Ideal S1x128 .f32) = (V c main_v84 : S1x128.Idx → EReal) := by
  obtain ⟨-, -, -, -, -, -, -, -, -, -, e0, e1, -⟩ := idx1 t
  funext y
  unfold iblk1
  rw [View.read_apply]
  show V c main_v84 _ = V c main_v84 y
  refine congrArg _ ?_
  funext a
  apply Fin.ext
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

/-- Rows of the biased product are the biased product of the rows: if the block `x` holds rows `o … o + 5999` of
    `A`, then entry `j` of the block's result is entry `(o + j 0, j 1)` of the whole array's. -/
theorem bias_rows1 (A : S300000x128.Idx → EReal) (W : S128x128.Idx → EReal) (b : S1x128.Idx → EReal)
    (x : S6000x128.Idx → EReal) (o : Nat) (j : S6000x128.Idx) (i : S300000x128.Idx)
    (hx : ∀ (y : S6000x128.Idx) (k : S300000x128.Idx), (k 0).val = o + (y 0).val → (k 1).val = (y 1).val → x y = A k)
    (hi0 : (i 0).val = o + (j 0).val) (hi1 : (i 1).val = (j 1).val) :
    biasRow (rowsByCols x W) b j = biasRow (rowsByCols A W) b i := by
  have hc : (j 1 : Fin 128) = (i 1 : Fin 128) := Fin.ext hi1.symm
  refine biasRow_congr _ _ _ _ j i (rowsByCols_congr _ _ _ _ j i (fun k => hx _ _ hi0 rfl) (fun k => ?_)) ?_
  · rw [hc]
  · rw [hc]

/-- What point `t` writes back is block `t` of the sum of the two biased products of the arrays the region finds. -/
theorem flushed1 (c : Dev nD) (t : Fin cfg1.N) :
    (dat1 (F := Ideal) V c).flushed 6 t = ((cfg1.win 6).blk t).view.read (Elt Ideal)
      (fun i : S300000x128.Idx =>
        biasRow (rowsByCols (V c main_v55 : S300000x128.Idx → EReal) (V c main_arg14 : S128x128.Idx → EReal)) (V c main_v83 : S1x128.Idx → EReal) i
        + biasRow (rowsByCols (V c main_v82 : S300000x128.Idx → EReal) (V c main_arg18 : S128x128.Idx → EReal)) (V c main_v84 : S1x128.Idx → EReal) i) := by
  show (cfg1.win 6).cut (grid1.coords t) ((dat1 V c).after 6 t) = _
  rw [after1_6]
  unfold out1_6
  rw [View.canon_unit_zero zeros2_k1]
  simp only [View.ld_unit_zero (S := S6000x128) zeros2_k1, View.ld_unit_zero (S := S128x128) zeros2_k1, View.ld_unit_zero (S := S1x128) zeros2_k1]
  rw [pay1, weights1a, bias1a, weights1b, bias1b]
  obtain ⟨-, -, -, -, -, -, -, -, -, -, -, -, e0, e1⟩ := idx1 t
  funext j
  rw [View.read_apply]
  show biasRow (rowsByCols (iblk1 V c 0 t : Vec Ideal S6000x128 .f32) (V c main_arg14 : S128x128.Idx → EReal)) (V c main_v83 : S1x128.Idx → EReal) j
      + biasRow (rowsByCols (iblk1 V c 3 t : Vec Ideal S6000x128 .f32) (V c main_arg18 : S128x128.Idx → EReal)) (V c main_v84 : S1x128.Idx → EReal) j
    = biasRow (rowsByCols (V c main_v55 : S300000x128.Idx → EReal) (V c main_arg14 : S128x128.Idx → EReal)) (V c main_v83 : S1x128.Idx → EReal) (((cfg1.win 6).blk t).view.emb j)
      + biasRow (rowsByCols (V c main_v82 : S300000x128.Idx → EReal) (V c main_arg18 : S128x128.Idx → EReal)) (V c main_v84 : S1x128.Idx → EReal) (((cfg1.win 6).blk t).view.emb j)
  have h0 : ((((cfg1.win 6).blk t).view.emb j : S300000x128.Idx) 0).val = t.val * 6000 + (j 0).val := by
    show win1_6.index t (0 : Fin 2) * 6000 + 1 * (j 0).val = t.val * 6000 + (j 0).val; rw [e0]; omega
  have h1 : ((((cfg1.win 6).blk t).view.emb j : S300000x128.Idx) 1).val = (j 1).val := by
    show win1_6.index t (1 : Fin 2) * 128 + 1 * (j 1).val = (j 1).val; rw [e1]; omega
  exact congrArg₂ (· + ·)
    (bias_rows1 _ _ _ _ (t.val * 6000) j _ (fun y k hy0 hy1 => rows1a V c t y k hy0 hy1) h0 h1)
    (bias_rows1 _ _ _ _ (t.val * 6000) j _ (fun y k hy0 hy1 => rows1b V c t y k hy0 hy1) h0 h1)

/-- An index of the output array is in point `t`'s block iff each coordinate is in the block's range on its axis. -/
theorem mem_blk1 (t : Fin cfg1.N) (i : S300000x128.Idx) :
    i ∈ ((cfg1.win 6).blk t).view.set ↔ ∀ a : Fin 2, win1_6.index t a * S6000x128.size a ≤ (i a).val ∧ (i a).val < win1_6.index t a * S6000x128.size a + S6000x128.size a := by
  show i ∈ ((View.whole main_v85).slice (win1_6.rect t)).set ↔ _
  rw [View.set_slice_whole, Rect.mem_set_unit]
  exact Iff.rfl

/-- Every row `r` of the output array is in the block of point `r / 6000`, which writes back. -/
theorem cover1 (i : S300000x128.Idx) :
    ∃ t : Fin cfg1.N, (cfg1.win 6).flush t = true ∧ i ∈ ((cfg1.win 6).blk t).view.set := by
  have hi0 : (i 0).val < 300000 := (i 0).isLt
  have hi1 : (i 1).val < 128 := (i 1).isLt
  have hN : cfg1.N = 50 := N_1
  have ht : (i 0).val / 6000 < cfg1.N := by rw [hN]; omega
  obtain ⟨-, -, -, -, -, -, -, -, -, -, -, -, e0, e1⟩ := idx1 ⟨(i 0).val / 6000, ht⟩
  refine ⟨⟨(i 0).val / 6000, ht⟩, flush1_6 _, ?_⟩
  rw [mem_blk1]
  intro a
  match a with
  | ⟨0, _⟩ =>
    show win1_6.index ⟨(i 0).val / 6000, ht⟩ (0 : Fin 2) * 6000 ≤ (i 0).val ∧ (i 0).val < win1_6.index ⟨(i 0).val / 6000, ht⟩ (0 : Fin 2) * 6000 + 6000
    rw [e0]; show (i 0).val / 6000 * 6000 ≤ (i 0).val ∧ (i 0).val < (i 0).val / 6000 * 6000 + 6000; omega
  | ⟨1, _⟩ =>
    show win1_6.index ⟨(i 0).val / 6000, ht⟩ (1 : Fin 2) * 128 ≤ (i 1).val ∧ (i 1).val < win1_6.index ⟨(i 0).val / 6000, ht⟩ (1 : Fin 2) * 128 + 128
    rw [e1]; omega

/-- The output array after the region: the sum of the two biased products, each of a whole input array by its
    weight matrix, as one function of the six arrays the region finds. -/
theorem final1 (c : Dev nD) : (dat1 (F := Ideal) V c).arrAt 6 cfg1.N = fun j => biasRow (rowsByCols (V c main_v55) (V c main_arg14)) (V c main_v83) j + biasRow (rowsByCols (V c main_v82) (V c main_arg18)) (V c main_v84) j :=
  (dat1 V c).arrAt_eq_of_cover 6 _ (fun t _ => flushed1 V c t) cover1

end Cert.KernelIdeal.Blocks

end
-- ==== Proof.Block2.lean ====
/-
  The third kernel's output array as one function of the arrays it reads.

  The kernel walks 25 row tiles of 6000 rows. At tile `t` it loads rows `6000 t … 6000 t + 5999` of the input
  `[150000, 128]`, the whole weight matrix `[128, 128]` and the whole bias row `[1, 128]`, and stores `x · w + b`
  into the same rows of the output. Entry `(r, q)` of the output therefore depends on row `r` of the input, column
  `q` of the weights and entry `q` of the bias, and the output array is the biased product of the whole input array.
-/
import proofs.«108617_j11038065950752_1_alg».proof.Proof.Gen.KernelIdeal.Frame
import proofs.«108617_j11038065950752_1_alg».proof.Proof.LibPlainDot
import proofs.«108617_j11038065950752_1_alg».proof.Proof.LibBiasRect
import proofs.«108617_j11038065950752_1_alg».proof.Proof.LibBiasRow
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blocks

open Idealize.ShloMosaic Idealize.ShloMosaic.TcCoe Idealize.ShloMosaic.ValueIdx Cert.KernelIdeal Cert.KernelIdeal.Gen Cert.Lib.PlainDot Cert.Lib.BiasRect Cert.Lib.BiasRow

variable (V : (c : Dev nD) → (b : Ref sig .tc) → Buf (Elt Ideal) ((c : Thread nD τ).loc b))

/-- The zero offsets of a whole-buffer access, as a constant function. -/
theorem zeros2_k2 : (![0, 0] : Fin 2 → Nat) = fun _ => 0 := funext fun a => by fin_cases a <;> rfl

/-- The value a grid point of the third kernel stores, from the three blocks it loads: the block of rows times the
    weight matrix, plus the bias row. The two casts keep the shape, narrowing to bf16 is the identity on extended
    reals, and the product goes into the zero accumulator. -/
theorem pay2 (x0 : Vec Ideal S6000x128 .f32) (x1 : Vec Ideal S128x128 .f32) (x2 : Vec Ideal S1x128 .f32) :
    k2_pay1 x0 x1 x2 = biasRow (rowsByCols x0 x1) x2 := by
  funext j
  obtain ⟨p, q, rfl⟩ : ∃ (p : Fin 6000) (q : Fin 128), j = ix2 p q := ⟨j 0, j 1, eq_ix2 j⟩
  unfold k2_pay1
  simp only [shapeCast_self]
  unfold Idealize.ShloMosaic.matmul
  rw [addf_apply, broadcastTo_1b_ab_apply,
    matmul_zero_eq dot_S6000x128_S128x128_S6000x128_1_0_0_1_n_n rfl none]
  rfl

/-- The block indices over the grid: at point `t` the row-tiled input and the output are at block `(t, 0)`, the
    weight matrix and the bias row at block `(0, 0)`. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The input block at point `t` is rows `6000 t … 6000 t + 5999` of the input array. -/
theorem rows2 (c : Dev nD) (t : Fin cfg2.N) (y : S6000x128.Idx) (k : S150000x128.Idx)
    (hk0 : (k 0).val = t.val * 6000 + (y 0).val) (hk1 : (k 1).val = (y 1).val) :
    (iblk2 V c 0 t : Vec Ideal S6000x128 .f32) y = (V c main_v112 : S150000x128.Idx → EReal) k := by
  obtain ⟨e0, e1, -⟩ := idx2 t
  unfold iblk2
  rw [View.read_apply]
  show V c main_v112 _ = V c main_v112 k
  refine congrArg _ ?_
  funext a
  apply Fin.ext
  match a with
  | ⟨0, _⟩ => show win2_0.index t (0 : Fin 2) * 6000 + 1 * (y 0).val = (k 0).val; rw [e0, hk0]; omega
  | ⟨1, _⟩ => show win2_0.index t (1 : Fin 2) * 128 + 1 * (y 1).val = (k 1).val; rw [e1, hk1]; omega

/-- The weight block at every point is the whole weight matrix. -/
theorem weights2 (c : Dev nD) (t : Fin cfg2.N) :
    (iblk2 V c 1 t : Vec Ideal S128x128 .f32) = (V c main_arg16 : S128x128.Idx → EReal) := by
  obtain ⟨-, -, e0, e1, -⟩ := idx2 t
  funext y
  unfold iblk2
  rw [View.read_apply]
  show V c main_arg16 _ = V c main_arg16 y
  refine congrArg _ ?_
  funext a
  apply Fin.ext
  match a with
  | ⟨0, _⟩ => show win2_1.index t (0 : Fin 2) * 128 + 1 * (y 0).val = (y 0).val; rw [e0]; omega
  | ⟨1, _⟩ => show win2_1.index t (1 : Fin 2) * 128 + 1 * (y 1).val = (y 1).val; rw [e1]; omega

/-- The bias block at every point is the whole bias row. -/
theorem bias2 (c : Dev nD) (t : Fin cfg2.N) :
    (iblk2 V c 2 t : Vec Ideal S1x128 .f32) = (V c main_v113 : S1x128.Idx → EReal) := by
  obtain ⟨-, -, -, -, e0, e1, -⟩ := idx2 t
  funext y
  unfold iblk2
  rw [View.read_apply]
  show V c main_v113 _ = V c main_v113 y
  refine congrArg _ ?_
  funext a
  apply Fin.ext
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- Rows of the biased product are the biased product of the rows: if the block `x` holds rows
    `o … o + 5999` of `A`, then entry `j` of the block's result is entry `(o + j 0, j 1)` of the whole array's. -/
theorem bias_rows2 (A : S150000x128.Idx → EReal) (W : S128x128.Idx → EReal) (b : S1x128.Idx → EReal)
    (x : S6000x128.Idx → EReal) (o : Nat) (j : S6000x128.Idx) (i : S150000x128.Idx)
    (hx : ∀ (y : S6000x128.Idx) (k : S150000x128.Idx), (k 0).val = o + (y 0).val → (k 1).val = (y 1).val → x y = A k)
    (hi0 : (i 0).val = o + (j 0).val) (hi1 : (i 1).val = (j 1).val) :
    biasRow (rowsByCols x W) b j = biasRow (rowsByCols A W) b i := by
  have hc : (j 1 : Fin 128) = (i 1 : Fin 128) := Fin.ext hi1.symm
  refine biasRow_congr _ _ _ _ j i (rowsByCols_congr _ _ _ _ j i (fun k => hx _ _ hi0 rfl) (fun k => ?_)) ?_
  · rw [hc]
  · rw [hc]

/-- What point `t` writes back is block `t` of the biased product of the arrays the region finds. -/
theorem flushed2 (c : Dev nD) (t : Fin cfg2.N) :
    (dat2 (F := Ideal) V c).flushed 3 t = ((cfg2.win 3).blk t).view.read (Elt Ideal)
      (biasRow (rowsByCols (V c main_v112 : S150000x128.Idx → EReal) (V c main_arg16 : S128x128.Idx → EReal)) (V c main_v113 : S1x128.Idx → EReal)) := by
  show (cfg2.win 3).cut (grid2.coords t) ((dat2 V c).after 3 t) = _
  rw [after2_3]
  unfold out2_3
  rw [View.canon_unit_zero zeros2_k2]
  simp only [View.ld_unit_zero (S := S6000x128) zeros2_k2, View.ld_unit_zero (S := S128x128) zeros2_k2, View.ld_unit_zero (S := S1x128) zeros2_k2]
  rw [pay2, weights2, bias2]
  obtain ⟨-, -, -, -, -, -, e0, e1⟩ := idx2 t
  funext j
  rw [View.read_apply]
  show biasRow (rowsByCols (iblk2 V c 0 t : Vec Ideal S6000x128 .f32) (V c main_arg16 : S128x128.Idx → EReal)) (V c main_v113 : S1x128.Idx → EReal) j
    = biasRow (rowsByCols (V c main_v112 : S150000x128.Idx → EReal) (V c main_arg16 : S128x128.Idx → EReal)) (V c main_v113 : S1x128.Idx → EReal) (((cfg2.win 3).blk t).view.emb j)
  refine bias_rows2 _ _ _ _ (t.val * 6000) j _ (fun y k h0 h1 => rows2 V c t y k h0 h1) ?_ ?_
  · show win2_3.index t (0 : Fin 2) * 6000 + 1 * (j 0).val = t.val * 6000 + (j 0).val; rw [e0]; omega
  · show win2_3.index t (1 : Fin 2) * 128 + 1 * (j 1).val = (j 1).val; rw [e1]; omega

/-- An index of the output array is in point `t`'s block iff each coordinate is in the block's range on its axis. -/
theorem mem_blk2 (t : Fin cfg2.N) (i : S150000x128.Idx) :
    i ∈ ((cfg2.win 3).blk t).view.set ↔ ∀ a : Fin 2, win2_3.index t a * S6000x128.size a ≤ (i a).val ∧ (i a).val < win2_3.index t a * S6000x128.size a + S6000x128.size a := by
  show i ∈ ((View.whole main_v114).slice (win2_3.rect t)).set ↔ _
  rw [View.set_slice_whole, Rect.mem_set_unit]
  exact Iff.rfl

/-- Every row `r` of the output array is in the block of point `r / 6000`, which writes back. -/
theorem cover2 (i : S150000x128.Idx) :
    ∃ t : Fin cfg2.N, (cfg2.win 3).flush t = true ∧ i ∈ ((cfg2.win 3).blk t).view.set := by
  have hi0 : (i 0).val < 150000 := (i 0).isLt
  have hi1 : (i 1).val < 128 := (i 1).isLt
  have hN : cfg2.N = 25 := N_2
  have ht : (i 0).val / 6000 < cfg2.N := by rw [hN]; omega
  obtain ⟨-, -, -, -, -, -, e0, e1⟩ := idx2 ⟨(i 0).val / 6000, ht⟩
  refine ⟨⟨(i 0).val / 6000, ht⟩, flush2_3 _, ?_⟩
  rw [mem_blk2]
  intro a
  match a with
  | ⟨0, _⟩ =>
    show win2_3.index ⟨(i 0).val / 6000, ht⟩ (0 : Fin 2) * 6000 ≤ (i 0).val ∧ (i 0).val < win2_3.index ⟨(i 0).val / 6000, ht⟩ (0 : Fin 2) * 6000 + 6000
    rw [e0]; show (i 0).val / 6000 * 6000 ≤ (i 0).val ∧ (i 0).val < (i 0).val / 6000 * 6000 + 6000; omega
  | ⟨1, _⟩ =>
    show win2_3.index ⟨(i 0).val / 6000, ht⟩ (1 : Fin 2) * 128 ≤ (i 1).val ∧ (i 1).val < win2_3.index ⟨(i 0).val / 6000, ht⟩ (1 : Fin 2) * 128 + 128
    rw [e1]; omega

/-- The output array after the region: the biased product of the whole input array by the weight matrix, as one
    function of the three arrays the region finds. -/
theorem final2 (c : Dev nD) : (dat2 (F := Ideal) V c).arrAt 3 cfg2.N = biasRow (rowsByCols (V c main_v112) (V c main_arg16)) (V c main_v113) :=
  (dat2 V c).arrAt_eq_of_cover 3 _ (fun t _ => flushed2 V c t) cover2

end Cert.KernelIdeal.Blocks

end
-- ==== Proof.Spec.lean ====
/-
  The network's two results as functions of the argument arrays, on the extended reals.

  With `agg` a relation's degree-normalised neighbourhood sum (the named chains), a layer's dense part is
  `agg · W + b`: entry `(p, q)` is `Σ_k agg[p,k] · W[k,q] + b[q]`. The clients' hidden rows are the first layer
  over the loan→client relation, rectified; the loans' result is the sum of two second-layer terms, one over the
  client→loan relation applied to the hidden rows and one over the loan→loan relation applied to the loan features;
  the clients' result is the second layer over the loan→client relation applied to the loan features.
-/
import proofs.«108617_j11038065950752_1_alg».proof.Proof.Chains
import proofs.«108617_j11038065950752_1_alg».proof.Proof.LibPlainDot
import proofs.«108617_j11038065950752_1_alg».proof.Proof.LibBiasRect
import proofs.«108617_j11038065950752_1_alg».proof.Proof.LibBiasRow

noncomputable section

namespace Cert.Rgcn

open Idealize.ShloMosaic Cert.Lib.PlainDot Cert.Lib.BiasRect Cert.Lib.BiasRow

variable [Cert.ReferenceIdeal.Facts₀]

/-- The clients' hidden rows: `relu (aggLC x · W + b)`. -/
def hidden (x : (⟨Cert.ReferenceIdeal.S300000x128, .f32⟩ : BufTy).Contents (Elt Ideal)) (srcLC dstLC : (⟨Cert.ReferenceIdeal.S600000, .i32⟩ : BufTy).Contents (Elt Ideal))
    (w : (⟨Cert.ReferenceIdeal.S128x128, .f32⟩ : BufTy).Contents (Elt Ideal)) (b : (⟨Cert.ReferenceIdeal.S128, .f32⟩ : BufTy).Contents (Elt Ideal)) : (⟨Cert.ReferenceIdeal.S150000x128, .f32⟩ : BufTy).Contents (Elt Ideal) :=
  rectified (n := 150000) (c := 128) (rowsByCols (M := 150000) (K := 128) (N := 128) (aggLC (F := Ideal) x srcLC dstLC) w) b

/-- The clients' result: `aggLC x · W + b`. -/
def outClients (x : (⟨Cert.ReferenceIdeal.S300000x128, .f32⟩ : BufTy).Contents (Elt Ideal)) (srcLC dstLC : (⟨Cert.ReferenceIdeal.S600000, .i32⟩ : BufTy).Contents (Elt Ideal))
    (w : (⟨Cert.ReferenceIdeal.S128x128, .f32⟩ : BufTy).Contents (Elt Ideal)) (b : (⟨Cert.ReferenceIdeal.S128, .f32⟩ : BufTy).Contents (Elt Ideal)) : (⟨Cert.ReferenceIdeal.S150000x128, .f32⟩ : BufTy).Contents (Elt Ideal) :=
  biased (n := 150000) (c := 128) (rowsByCols (M := 150000) (K := 128) (N := 128) (aggLC (F := Ideal) x srcLC dstLC) w) b

/-- The loans' result: `(aggCL h · W_cl + b_cl) + (aggLL x · W_ll + b_ll)` with `h` the clients' hidden rows. -/
def outLoans (x : (⟨Cert.ReferenceIdeal.S300000x128, .f32⟩ : BufTy).Contents (Elt Ideal)) (srcCL dstCL srcLC dstLC : (⟨Cert.ReferenceIdeal.S600000, .i32⟩ : BufTy).Contents (Elt Ideal)) (srcLL dstLL : (⟨Cert.ReferenceIdeal.S400000, .i32⟩ : BufTy).Contents (Elt Ideal))
    (w1 : (⟨Cert.ReferenceIdeal.S128x128, .f32⟩ : BufTy).Contents (Elt Ideal)) (b1 : (⟨Cert.ReferenceIdeal.S128, .f32⟩ : BufTy).Contents (Elt Ideal)) (wCL : (⟨Cert.ReferenceIdeal.S128x128, .f32⟩ : BufTy).Contents (Elt Ideal)) (bCL : (⟨Cert.ReferenceIdeal.S128, .f32⟩ : BufTy).Contents (Elt Ideal))
    (wLL : (⟨Cert.ReferenceIdeal.S128x128, .f32⟩ : BufTy).Contents (Elt Ideal)) (bLL : (⟨Cert.ReferenceIdeal.S128, .f32⟩ : BufTy).Contents (Elt Ideal)) : (⟨Cert.ReferenceIdeal.S300000x128, .f32⟩ : BufTy).Contents (Elt Ideal) :=
  fun j =>
    biased (n := 300000) (c := 128) (rowsByCols (M := 300000) (K := 128) (N := 128) (aggCL (F := Ideal) (hidden x srcLC dstLC w1 b1) srcCL dstCL) wCL) bCL j
    + biased (n := 300000) (c := 128) (rowsByCols (M := 300000) (K := 128) (N := 128) (aggLL (F := Ideal) x srcLL dstLL) wLL) bLL j

end Cert.Rgcn

end
-- ==== Proof.KernelValue.lean ====
/-
  The kernel program's two results are the specification's functions of its arguments.

  Each region leaves in its output array one whole-array function of its operand arrays (the block theorems, stated
  at the region's entry contents): `agg · W + b` row block by row block is `agg · W + b` of the whole array. The
  operand arrays are the named neighbourhood sums of the arguments, or of the hidden rows the first region left, and
  the bias vectors recast as rows (the entry lemmas); an added row that is a recast vector is the vector added.
-/
import proofs.«108617_j11038065950752_1_alg».proof.Proof.RunResults
import proofs.«108617_j11038065950752_1_alg».proof.Proof.EntryArgs
import proofs.«108617_j11038065950752_1_alg».proof.Proof.Entry0
import proofs.«108617_j11038065950752_1_alg».proof.Proof.Entry1
import proofs.«108617_j11038065950752_1_alg».proof.Proof.Entry2
import proofs.«108617_j11038065950752_1_alg».proof.Proof.Block0
import proofs.«108617_j11038065950752_1_alg».proof.Proof.Block1
import proofs.«108617_j11038065950752_1_alg».proof.Proof.Block2
import proofs.«108617_j11038065950752_1_alg».proof.Proof.Spec

noncomputable section

namespace Cert.KernelIdeal.KValue

open Idealize.ShloMosaic Idealize.ShloMosaic.TcCoe Idealize.SL.Sem
open Cert.KernelIdeal Cert.KernelIdeal.Gen Cert.KernelIdeal.Entry
open Cert.Rgcn Cert.Lib.PlainDot Cert.Lib.BiasRect Cert.Lib.BiasRow

variable (m : (ℓ : Loc nD τ sig) → Buf (Elt Ideal) ℓ) (ρ : Dev nD → PrngReg)

/-- The first region leaves the clients' hidden rows. -/
theorem hidden_eq (c : Dev nD) :
    W6 m ρ c (Proc.devRef .tc main_v28) = hidden (m ((c : Thread nD τ).loc main_arg0)) (m ((c : Thread nD τ).loc main_arg4)) (m ((c : Thread nD τ).loc main_arg5)) (m ((c : Thread nD τ).loc main_arg10)) (m ((c : Thread nD τ).loc main_arg11)) := by
  refine ((W6_arr m ρ c 3).trans (Blocks.final0 (V5 m ρ) c)).trans ?_
  show biasRect (rowsByCols (W5 m ρ c (Proc.devRef .tc main_v26)) (W5 m ρ c (Proc.devRef .tc main_arg10))) (W5 m ρ c (Proc.devRef .tc main_v27)) = _
  rw [W5_v26, W5_arg10, W5_v27]
  exact biasRect_cast _ _ _

/-- The loans' result buffer at the last boundary: the second region's output array, untouched afterwards. -/
theorem loans_eq (c : Dev nD) :
    W22 m ρ c (Proc.devRef .tc main_v85) = outLoans (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg14)) (m ((c : Thread nD τ).loc main_arg15)) (m ((c : Thread nD τ).loc main_arg18)) (m ((c : Thread nD τ).loc main_arg19)) := by
  refine (W22_of_ne m ρ c main_v85 (by decide)).trans ?_
  refine (W21_v85 m ρ c).trans ?_
  refine ((W16_arr m ρ c 6).trans (Blocks.final1 (V15 m ρ) c)).trans ?_
  show (fun j => biasRow (rowsByCols (W15 m ρ c (Proc.devRef .tc main_v55)) (W15 m ρ c (Proc.devRef .tc main_arg14))) (W15 m ρ c (Proc.devRef .tc main_v83)) j
      + biasRow (rowsByCols (W15 m ρ c (Proc.devRef .tc main_v82)) (W15 m ρ c (Proc.devRef .tc main_arg18))) (W15 m ρ c (Proc.devRef .tc main_v84)) j) = _
  rw [W15_v55, W15_arg14, W15_v83, W15_v82, W15_arg18, W15_v84, hidden_eq,
    W6_arg2, W6_arg3, W6_arg15, W6_arg0, W6_arg6, W6_arg7, W6_arg19]
  rw [biasRow_cast, biasRow_cast]
  rfl

/-- The clients' result buffer at the last boundary: the third region's output array. -/
theorem clients_eq (c : Dev nD) :
    W22 m ρ c (Proc.devRef .tc main_v114) = outClients (m ((c : Thread nD τ).loc main_arg0)) (m ((c : Thread nD τ).loc main_arg4)) (m ((c : Thread nD τ).loc main_arg5)) (m ((c : Thread nD τ).loc main_arg16)) (m ((c : Thread nD τ).loc main_arg17)) := by
  refine ((W22_arr m ρ c 3).trans (Blocks.final2 (V21 m ρ) c)).trans ?_
  show biasRow (rowsByCols (W21 m ρ c (Proc.devRef .tc main_v112)) (W21 m ρ c (Proc.devRef .tc main_arg16))) (W21 m ρ c (Proc.devRef .tc main_v113)) = _
  rw [W21_v112, W21_arg16, W21_v113, W16_arg0, W16_arg4, W16_arg5, W16_arg17]
  exact biasRow_cast _ _ _

/-- The kernel program's run with both results at the specification's functions of the arguments. -/
theorem run : θ_run defs (onTc (τ := τ) (main (F := Ideal))) ⟨m, fun _ => 0, ρ⟩ (fun r => ∀ c : Dev nD,
      r.2.mem ((c.tc : Thread nD τ).loc main_v85) = outLoans (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg14)) (m ((c : Thread nD τ).loc main_arg15)) (m ((c : Thread nD τ).loc main_arg18)) (m ((c : Thread nD τ).loc main_arg19))
      ∧ r.2.mem ((c.tc : Thread nD τ).loc main_v114) = outClients (m ((c : Thread nD τ).loc main_arg0)) (m ((c : Thread nD τ).loc main_arg4)) (m ((c : Thread nD τ).loc main_arg5)) (m ((c : Thread nD τ).loc main_arg16)) (m ((c : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨(h c).1.trans (loans_eq m ρ c), (h c).2.1.trans (clients_eq m ρ c), (h c).2.2⟩)
    (Results.run_results m ρ)

end Cert.KernelIdeal.KValue

end
-- ==== Proof.RefValue.lean ====
/-
  The reference's two results are the specification's functions of its arguments.

  The reference computes each layer's dense part on the host as a `dot_general` of the normalised neighbourhood sum
  with the weight matrix, plus the bias vector spread over the rows, the first layer followed by a maximum with a
  spread zero. At the exact instance the `dot_general` is the plain matrix product, so each layer is the
  specification's `biased` / `rectified` of `rowsByCols`; the neighbourhood sums are the named chains, never opened.
-/
import proofs.«108617_j11038065950752_1_alg».proof.Proof.Gen.ReferenceIdeal.Run
import proofs.«108617_j11038065950752_1_alg».proof.Proof.Spec

noncomputable section

namespace Cert.ReferenceIdeal.RefValue

open Idealize.ShloMosaic Idealize.ShloMosaic.TcCoe Idealize.SL.Sem
open Cert.ReferenceIdeal Cert.ReferenceIdeal.Facts₀
open Cert.Rgcn Cert.Lib.PlainDot Cert.Lib.BiasRect Cert.Lib.BiasRow

/-- A second-layer term over the 150000 client rows: the host's product plus the spread bias is `agg · W + b`. -/
theorem layer150 (A : FVec Ideal S150000x128 .f32) (w : FVec Ideal S128x128 .f32) (b : FVec Ideal S128 .f32) :
    addf (F := Ideal) (Host.dotGeneral (F := Ideal) (φ₁ := .f32) (φ₂ := .f32) dot_S150000x128_S128x128_S150000x128_1_0_0_1_n_n none A w) (broadcastInDim S150000x128 ![0, 1] bcast_S1x128_S150000x128_0_1 (broadcastInDim S1x128 ![1] bcast_S128_S1x128_1 b))
      = biased (n := 150000) (c := 128) (rowsByCols (M := 150000) (K := 128) (N := 128) A w) b := by
  simp only [Host.dotGeneral]
  rw [dotGeneral_eq (M := 150000) (K := 128) (N := 128) dot_S150000x128_S128x128_S150000x128_1_0_0_1_n_n rfl]
  exact host_biased (n := 150000) (c := 128) _ b _ _

/-- The same over the 300000 loan rows. -/
theorem layer300 (A : FVec Ideal S300000x128 .f32) (w : FVec Ideal S128x128 .f32) (b : FVec Ideal S128 .f32) :
    addf (F := Ideal) (Host.dotGeneral (F := Ideal) (φ₁ := .f32) (φ₂ := .f32) dot_S300000x128_S128x128_S300000x128_1_0_0_1_n_n none A w) (broadcastInDim S300000x128 ![0, 1] bcast_S1x128_S300000x128_0_1 (broadcastInDim S1x128 ![1] bcast_S128_S1x128_1 b))
      = biased (n := 300000) (c := 128) (rowsByCols (M := 300000) (K := 128) (N := 128) A w) b := by
  simp only [Host.dotGeneral]
  rw [dotGeneral_eq (M := 300000) (K := 128) (N := 128) dot_S300000x128_S128x128_S300000x128_1_0_0_1_n_n rfl]
  exact host_biased (n := 300000) (c := 128) _ b _ _

/-- The first layer over the client rows, rectified: `relu (agg · W + b)`. -/
theorem layer150_relu (A : FVec Ideal S150000x128 .f32) (w : FVec Ideal S128x128 .f32) (b : FVec Ideal S128 .f32) :
    maximumf (F := Ideal) (addf (F := Ideal) (Host.dotGeneral (F := Ideal) (φ₁ := .f32) (φ₂ := .f32) dot_S150000x128_S128x128_S150000x128_1_0_0_1_n_n none A w) (broadcastInDim S150000x128 ![0, 1] bcast_S1x128_S150000x128_0_1 (broadcastInDim S1x128 ![1] bcast_S128_S1x128_1 b)))
        (broadcastInDim S150000x128 ![] bcast_S_S150000x128 (constant (F := Ideal) S_ .f32 0x00000000#32))
      = rectified (n := 150000) (c := 128) (rowsByCols (M := 150000) (K := 128) (N := 128) A w) b := by
  simp only [Host.dotGeneral]
  rw [dotGeneral_eq (M := 150000) (K := 128) (N := 128) dot_S150000x128_S128x128_S150000x128_1_0_0_1_n_n rfl]
  exact host_rectified (n := 150000) (c := 128) _ b _ _ _

variable (m : (ℓ : Loc nD τ sig) → Buf (Elt Ideal) ℓ) (c : Dev nD)

/-- The clients' result term of the reference's run is the specification's. -/
theorem clients_eq :
    addf (F := Ideal) (Host.dotGeneral (F := Ideal) (φ₁ := .f32) (φ₂ := .f32) dot_S150000x128_S128x128_S150000x128_1_0_0_1_n_n none (aggLC (F := Ideal) (m ((c.tc : Thread nD τ).loc main_arg0)) (m ((c.tc : Thread nD τ).loc main_arg4)) (m ((c.tc : Thread nD τ).loc main_arg5))) (m ((c.tc : Thread nD τ).loc main_arg16))) (broadcastInDim S150000x128 ![0, 1] bcast_S1x128_S150000x128_0_1 (broadcastInDim S1x128 ![1] bcast_S128_S1x128_1 (m ((c.tc : Thread nD τ).loc main_arg17))))
      = outClients (m ((c.tc : Thread nD τ).loc main_arg0)) (m ((c.tc : Thread nD τ).loc main_arg4)) (m ((c.tc : Thread nD τ).loc main_arg5)) (m ((c.tc : Thread nD τ).loc main_arg16)) (m ((c.tc : Thread nD τ).loc main_arg17)) :=
  layer150 _ _ _

/-- The loans' result term of the reference's run is the specification's. -/
theorem loans_eq :
    Value.res_main_v94 (F := Ideal) m c
      = outLoans (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) (m ((c.tc : Thread nD τ).loc main_arg14)) (m ((c.tc : Thread nD τ).loc main_arg15)) (m ((c.tc : Thread nD τ).loc main_arg18)) (m ((c.tc : Thread nD τ).loc main_arg19)) := by
  have e : Value.res_main_v94 (F := Ideal) m c
      = addf (F := Ideal)
          (addf (F := Ideal) (Host.dotGeneral (F := Ideal) (φ₁ := .f32) (φ₂ := .f32) dot_S300000x128_S128x128_S300000x128_1_0_0_1_n_n none
              (aggCL (F := Ideal)
                (maximumf (F := Ideal) (addf (F := Ideal) (Host.dotGeneral (F := Ideal) (φ₁ := .f32) (φ₂ := .f32) dot_S150000x128_S128x128_S150000x128_1_0_0_1_n_n none (aggLC (F := Ideal) (m ((c.tc : Thread nD τ).loc main_arg0)) (m ((c.tc : Thread nD τ).loc main_arg4)) (m ((c.tc : Thread nD τ).loc main_arg5))) (m ((c.tc : Thread nD τ).loc main_arg10))) (broadcastInDim S150000x128 ![0, 1] bcast_S1x128_S150000x128_0_1 (broadcastInDim S1x128 ![1] bcast_S128_S1x128_1 (m ((c.tc : Thread nD τ).loc main_arg11)))))
                  (broadcastInDim S150000x128 ![] bcast_S_S150000x128 (constant (F := Ideal) S_ .f32 0x00000000#32)))
                (m ((c.tc : Thread nD τ).loc main_arg2)) (m ((c.tc : Thread nD τ).loc main_arg3))) (m ((c.tc : Thread nD τ).loc main_arg14))) (broadcastInDim S300000x128 ![0, 1] bcast_S1x128_S300000x128_0_1 (broadcastInDim S1x128 ![1] bcast_S128_S1x128_1 (m ((c.tc : Thread nD τ).loc main_arg15)))))
          (addf (F := Ideal) (Host.dotGeneral (F := Ideal) (φ₁ := .f32) (φ₂ := .f32) dot_S300000x128_S128x128_S300000x128_1_0_0_1_n_n none (aggLL (F := Ideal) (m ((c.tc : Thread nD τ).loc main_arg0)) (m ((c.tc : Thread nD τ).loc main_arg6)) (m ((c.tc : Thread nD τ).loc main_arg7))) (m ((c.tc : Thread nD τ).loc main_arg18))) (broadcastInDim S300000x128 ![0, 1] bcast_S1x128_S300000x128_0_1 (broadcastInDim S1x128 ![1] bcast_S128_S1x128_1 (m ((c.tc : Thread nD τ).loc main_arg19))))) := rfl
  rw [e, layer150_relu, layer300, layer300]
  rfl

/-- The reference's run with both results at the specification's functions of the arguments. -/
theorem run (ρ : Dev nD → PrngReg) :
    θ_run defs (onTc (τ := τ) (main (F := Ideal))) ⟨m, fun _ => 0, ρ⟩ fun r => ∀ c : Dev nD,
      r.2.mem ((c.tc : Thread nD τ).loc main_v94)
          = outLoans (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) (m ((c.tc : Thread nD τ).loc main_arg14)) (m ((c.tc : Thread nD τ).loc main_arg15)) (m ((c.tc : Thread nD τ).loc main_arg18)) (m ((c.tc : Thread nD τ).loc main_arg19))
      ∧ r.2.mem ((c.tc : Thread nD τ).loc main_v125) = outClients (m ((c.tc : Thread nD τ).loc main_arg0)) (m ((c.tc : Thread nD τ).loc main_arg4)) (m ((c.tc : Thread nD τ).loc main_arg5)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c).1.trans (loans_eq m c), (h c).2.1.trans (clients_eq m c), (h c).2.2⟩)
    (Value.run (F := Ideal) m ρ)

end Cert.ReferenceIdeal.RefValue

end
-- ==== Proof.lean ====
/-
  A two-layer relational graph convolution over two node types (300000 loans, 150000 clients; feature width 128) and
  three relations, against its jnp reference, on the extended reals.

  Both programs compute, per relation, the degree-normalised neighbourhood sum `D_dst^{-1/2} A D_src^{-1/2} x` on the
  host with the same operations. They differ in the dense part `agg · W + b` of each layer: the reference spells it
  as a `dot_general` plus the bias vector spread over the rows (the first layer followed by a maximum with zero); the
  kernel's program runs it in three row-tiled regions, 6000 rows at a time, each tile a matrix product of the tile
  with the whole weight matrix into a zero accumulator plus the bias recast as one row — the second region adding two
  such terms. At the exact instance a change of float format is the identity, both products are the plain sum over
  `k < 128` of `agg[p,k] · W[k,q]`, and a row tile of `agg · W + b` is `agg · W + b` of the tile; so both programs end
  with the specification's functions `outLoans`, `outClients` of their arguments (Proof/KernelValue.lean,
  Proof/RefValue.lean), the neighbourhood sums carried as named functions that are never opened. No law used here
  needs the inputs finite. The three frames are the generated ones (the reference's is its run with the results
  dropped), and the ideal pass rewrote nothing, so the idealization claim is trivial.
-/
import proofs.«108617_j11038065950752_1_alg».proof.Defs
import proofs.«108617_j11038065950752_1_alg».proof.Proof.Gen.Kernel
import proofs.«108617_j11038065950752_1_alg».proof.Proof.Gen.Kernel.Skeleton
import proofs.«108617_j11038065950752_1_alg».proof.Proof.Gen.Kernel.Launch
import proofs.«108617_j11038065950752_1_alg».proof.Proof.Gen.Kernel.Points
import proofs.«108617_j11038065950752_1_alg».proof.Proof.Gen.Kernel.Frame
import proofs.«108617_j11038065950752_1_alg».proof.Proof.Gen.KernelIdeal
import proofs.«108617_j11038065950752_1_alg».proof.Proof.Gen.KernelIdeal.Skeleton
import proofs.«108617_j11038065950752_1_alg».proof.Proof.Gen.KernelIdeal.Launch
import proofs.«108617_j11038065950752_1_alg».proof.Proof.Gen.KernelIdeal.Points
import proofs.«108617_j11038065950752_1_alg».proof.Proof.Gen.KernelIdeal.Frame
import proofs.«108617_j11038065950752_1_alg».proof.Proof.Gen.ReferenceIdeal
import proofs.«108617_j11038065950752_1_alg».proof.Proof.Gen.ReferenceIdeal.Run
import proofs.«108617_j11038065950752_1_alg».proof.Proof.Gen.Pre_finite_inputs
import proofs.«108617_j11038065950752_1_alg».proof.Proof.KernelValue
import proofs.«108617_j11038065950752_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the specification's functions of the
    arguments: the same arrays, the reference's arguments rewritten to the kernel's. -/
theorem algebraic : Cert.algebraic_KernelIdeal_ReferenceIdeal := by
  intro m ρ m' ρ' _ hagree
  refine ⟨_, _, Cert.KernelIdeal.KValue.run m ρ, ?_⟩
  refine (θ_run Cert.ReferenceIdeal.defs _ _).mono (fun _ h c => ?_) (Cert.ReferenceIdeal.RefValue.run m' ρ')
  obtain ⟨e0, e1, e2, e3, e4, e5, e6, e7, e8, e9, e10, e11, e12, e13, e14, e15, e16, e17, e18, e19⟩ := hagree c
  refine ⟨(h c).1.trans ?_, (h c).2.1.trans ?_, (h c).2.2⟩
  · rw [e0, e2, e3, e4, e5, e6, e7, e10, e11, e14, e15, e18, e19]
  · rw [e0, e4, e5, e16, e17]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
